-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S1024x1024 : Shape := ⟨2, ![1024, 1024]⟩
abbrev S1024 : Shape := ⟨1, ![1024]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x2048 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x2048 : Shape := ⟨3, ![4, 2048, 2048]⟩
abbrev S1024x1024 : Shape := ⟨2, ![1024, 1024]⟩
abbrev S1024 : Shape := ⟨1, ![1024]⟩
abbrev S1x1024 : Shape := ⟨2, ![1, 1024]⟩
abbrev S4x2048x1024 : Shape := ⟨3, ![4, 2048, 1024]⟩
abbrev S1x512x2048 : Shape := ⟨3, ![1, 512, 2048]⟩
abbrev S1x512x1024 : Shape := ⟨3, ![1, 512, 1024]⟩
abbrev S512x2048 : Shape := ⟨2, ![512, 2048]⟩
abbrev S512x1024 : Shape := ⟨2, ![512, 1024]⟩
abbrev S1x256x1024 : Shape := ⟨3, ![1, 256, 1024]⟩
abbrev S1x2048x1024 : Shape := ⟨3, ![1, 2048, 1024]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 22
  | .vmem => 26
  | .smem => 0
  | _ => 0

abbrev bufTy : (tb : Table) → Fin (tcTables nBuf tb) → BufTy
  | .hbm, ⟨0, _⟩ => ⟨S4x2048x2048, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S4x2048x1024, .bf16⟩
  | .hbm, ⟨17, _⟩ => ⟨S4x2048x1024, .bf16⟩
  | .hbm, ⟨18, _⟩ => ⟨S4x2048x1024, .bf16⟩
  | .hbm, ⟨19, _⟩ => ⟨S4x2048x1024, .bf16⟩
  | .hbm, ⟨20, _⟩ => ⟨S4x2048x1024, .f32⟩
  | .hbm, ⟨21, _⟩ => ⟨S4x2048x1024, .f32⟩
  | .local _ .vmem, ⟨0, _⟩ => ⟨S1x512x2048, .f32⟩
  | .local _ .vmem, ⟨1, _⟩ => ⟨S1x512x2048, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .f32⟩
  | .local _ .vmem, ⟨23, _⟩ => ⟨S1x256x1024, .f32⟩
  | .local _ .vmem, ⟨24, _⟩ => ⟨S1x2048x1024, .f32⟩
  | .local _ .vmem, ⟨25, _⟩ => ⟨S1x2048x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S1x256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x2048x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  slices_S512x2048_o0_0_S512x1024 : S512x2048.Slices ![0, 0] S512x1024
  slices_S512x2048_o0_1024_S512x1024 : S512x2048.Slices ![0, 1024] S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x2048x1024_S1x2048x1024_0_0_0 : ∀ a, (![0, 0, 0] : Fin 3 → Nat) a + S1x2048x1024.size a ≤ S1x2048x1024.size a
  h_S1x2048x1024 : 0 < S1x2048x1024.numel
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  shapeCasts_S256x1024_S1x256x1024 : S256x1024.ShapeCasts S1x256x1024
  shapeCasts_S2048x1024_S1x2048x1024 : S2048x1024.ShapeCasts S1x2048x1024
  dot_S512x1024_S1024x1024_S512x1024_1_0_0_1_n_n_wf : DotDims.WF S512x1024 S1024x1024 S512x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  dot_S256x2048_S256x1024_S2048x1024_0_0_1_1_n_n_wf : DotDims.WF S256x2048 S256x1024 S2048x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x2048x2048.size a
  hwx0_0 : ∀ i : grid0.Coords, EltTy.bits .f32 = 32 ∨ (Rect.block (s := S4x2048x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S4x2048x1024.size a
  hwx0_7 : ∀ i : grid0.Coords, EltTy.bits .bf16 = 32 ∨ (Rect.block (s := S4x2048x1024) S1x512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1024.size a ≤ S4x2048x1024.size a
  hwx0_8 : ∀ i : grid0.Coords, EltTy.bits .bf16 = 32 ∨ (Rect.block (s := S4x2048x1024) S1x512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S4x2048x1024.size a
  hwx0_9 : ∀ i : grid0.Coords, EltTy.bits .bf16 = 32 ∨ (Rect.block (s := S4x2048x1024) S1x512x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x1024.size a ≤ S4x2048x1024.size a
  hwx0_10 : ∀ i : grid0.Coords, EltTy.bits .bf16 = 32 ∨ (Rect.block (s := S4x2048x1024) S1x512x1024.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .bf16 = 32 ∨ (Rect.block (s := S4x2048x1024) S1x256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S4x2048x1024.size a
  hwx1_3 : ∀ i : grid1.Coords, EltTy.bits .bf16 = 32 ∨ (Rect.block (s := S4x2048x1024) S1x256x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1024.size a ≤ S4x2048x1024.size a
  hwx1_4 : ∀ i : grid1.Coords, EltTy.bits .f32 = 32 ∨ (Rect.block (s := S4x2048x1024) S1x256x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2048x1024.size a ≤ S4x2048x1024.size a
  hwx1_5 : ∀ i : grid1.Coords, EltTy.bits .f32 = 32 ∨ (Rect.block (s := S4x2048x1024) S1x2048x1024.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x2048_S256x1024_S2048x1024_0_0_1_1_n_n : DotDims S256x2048 S256x1024 S2048x1024 where
  lhsContracting := [0]
  rhsContracting := [0]
  lhsNonContracting := [1]
  rhsNonContracting := [1]
  lhsBatch := []
  rhsBatch := []
  wf := dot_S256x2048_S256x1024_S2048x1024_0_0_1_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S1x512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S1x512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_2) S1x512x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_3) S1x512x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v9_0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S1x2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9_2) S1x2048x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9_3) S1x256x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10_0) S1x256x1024.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10_1) S1x2048x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x2048 : Shape := ⟨3, ![4, 2048, 2048]⟩
abbrev S1024x1024 : Shape := ⟨2, ![1024, 1024]⟩
abbrev S1024 : Shape := ⟨1, ![1024]⟩
abbrev S4x2048x1024 : Shape := ⟨3, ![4, 2048, 1024]⟩
abbrev S1x1x1024 : Shape := ⟨3, ![1, 1, 1024]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x2048, .f32⟩
  | .hbm, ⟨22, _⟩ => ⟨S_, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | .hbm, ⟨41, _⟩ => ⟨S4x2048x1024, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S4x2048x2048_S4x2048x1024_0_0_0 : S4x2048x2048.Slices ![0, 0, 0] S4x2048x1024
  slices_S4x2048x2048_S4x2048x1024_0_0_1024 : S4x2048x2048.Slices ![0, 0, 1024] S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]
  dot_S4x2048x2048_S4x2048x1024_S4x2048x1024_1_1_2_2_0_0_wf : DotDims.WF S4x2048x2048 S4x2048x1024 S4x2048x1024 [1] [1] [2] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf
def dot_S4x2048x2048_S4x2048x1024_S4x2048x1024_1_1_2_2_0_0 : DotDims S4x2048x2048 S4x2048x1024 S4x2048x1024 where
  lhsContracting := [1]
  rhsContracting := [1]
  lhsNonContracting := [2]
  rhsNonContracting := [2]
  lhsBatch := [0]
  rhsBatch := [0]
  wf := dot_S4x2048x2048_S4x2048x1024_S4x2048x1024_1_1_2_2_0_0_wf

class Facts : Prop extends Facts₀ where

variable [Facts]
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.LibSoftmaxRows.lean ====
/-
  The softmax of each row of an [a, b] array, as a vector program spells it, read at an entry.

  The program takes each row's maximum from minus infinity and keeps it as an [a, 1] column, broadcasts the column
  over the b columns, subtracts, exponentiates, sums each row of exponentials and keeps the sums as an [a, 1] column,
  broadcasts that column, and divides. On the extended reals entry (p, q) of the result is
  exp(s_q - m) / (sum over k of exp(s_k - m)), where s is row p of the array and m the maximum of that row from minus
  infinity: `softmaxRows_apply`, for any extents. `maxCol_apply` reads the kept column of row maxima alone, and
  `max_negInf_rowMax` says that one more maximum with minus infinity leaves a row's maximum as it is.
-/
import Idealize.ShloMosaic.Lib.Pipeline.Value
import Idealize.ShloMosaic.Lib.ValueIdx
import Idealize.ShloMosaic.PureOps.Ideal.Laws
import proofs.«179408_j30039001268913_2_alg».proof.Proof.LibKeepdims

noncomputable section

open scoped BigOperators

namespace Cert.Lib.SoftmaxRows

open Idealize.ShloMosaic Idealize.ShloMosaic.ValueIdx Cert.Lib.Keepdims

/-- Minus infinity, as the f32 word that spells it. -/
abbrev negInf : EReal := Ideal.ofBits .f32 0xFF800000#32

/-- The maximum of a row, taken from minus infinity. -/
def rowMax {n : Nat} (s : Fin n → EReal) : EReal := (Finset.univ : Finset (Fin n)).fold max negInf s

/-- Taking the maximum with minus infinity once more changes nothing: the fold already started there. -/
theorem max_negInf_rowMax {n : Nat} (s : Fin n → EReal) : max negInf (rowMax s) = rowMax s :=
  max_eq_right ((Finset.le_fold_max negInf).mpr (Or.inl le_rfl))

/-- The softmax of a row at position q: the exponential of the entry less the row's maximum, over the sum of all
    such exponentials of the row. -/
def softmax {n : Nat} (s : Fin n → EReal) (q : Fin n) : EReal :=
  Ideal.div (Ideal.exp (s q - rowMax s)) (∑ k : Fin n, Ideal.exp (s k - rowMax s))

variable {a b : Nat}

/-- The maxima of an [a, b] array's rows, from minus infinity, kept as a column: row p of the column is the maximum
    of row p. -/
theorem maxCol_apply (v : FVec Ideal ⟨2, ![a, b]⟩ .f32)
    (hr : (⟨2, ![a, b]⟩ : Shape).Reduces [1] ⟨1, ![a]⟩) (hφ : FKind.Formats .f32)
    (hacc : (0xFF800000#32 : BitVec FTy.f32.bits) = FKind.maximumf.neutral .f32 hφ)
    (hc : (⟨1, ![a]⟩ : Shape).ShapeCasts ⟨2, ![a, 1]⟩) (p : Fin a) :
    shapeCast ⟨2, ![a, 1]⟩ (multiReduction .maximumf [1] ⟨1, ![a]⟩ v 0xFF800000#32 hr hφ hacc) hc (ix2 p (0 : Fin 1))
      = rowMax (fun k : Fin b => v (ix2 p k)) := by
  refine (castCol_apply _ hc p).trans ?_
  refine (Ideal.multiReduction_maximumf_single v _ hr hφ hacc (ix1 p)).trans ?_
  exact Finset.fold_congr fun k _ =>
    congrArg v (funext fun d => Fin.ext (by match d with | ⟨0, _⟩ => rfl | ⟨1, _⟩ => rfl))

/-- The row softmax as the vector program spells it, read at entry (p, q). -/
theorem softmaxRows_apply (s : FVec Ideal ⟨2, ![a, b]⟩ .f32)
    (hr : (⟨2, ![a, b]⟩ : Shape).Reduces [1] ⟨1, ![a]⟩) (hφ : FKind.Formats .f32)
    (haccM : (0xFF800000#32 : BitVec FTy.f32.bits) = FKind.maximumf.neutral .f32 hφ)
    (haccA : (0x00000000#32 : BitVec FTy.f32.bits) = FKind.add.neutral .f32 hφ)
    (hc : (⟨1, ![a]⟩ : Shape).ShapeCasts ⟨2, ![a, 1]⟩)
    (hb : (⟨2, ![a, 1]⟩ : Shape).Broadcasts ⟨2, ![a, b]⟩) (p : Fin a) (q : Fin b) :
    divf
        (exp (subf s (broadcastTo ⟨2, ![a, b]⟩
          (shapeCast ⟨2, ![a, 1]⟩ (multiReduction .maximumf [1] ⟨1, ![a]⟩ s 0xFF800000#32 hr hφ haccM) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 hr hφ haccM) hc) hb)))
              0x00000000#32 hr hφ haccA) hc) hb)
        (ix2 p q)
      = softmax (fun k : Fin b => s (ix2 p k)) q := by
  have he : ∀ k : Fin b,
      exp (subf s (broadcastTo ⟨2, ![a, b]⟩
          (shapeCast ⟨2, ![a, 1]⟩ (multiReduction .maximumf [1] ⟨1, ![a]⟩ s 0xFF800000#32 hr hφ haccM) hc) hb)) (ix2 p k)
        = Ideal.exp (s (ix2 p k) - rowMax (fun k : Fin b => s (ix2 p k))) := fun k =>
    congrArg (fun m => Ideal.exp (s (ix2 p k) - m))
      ((bcastCol_apply _ hb p k).trans (maxCol_apply s hr hφ haccM hc p))
  refine (congrArg₂ Ideal.div (he q) ((bcastCol_apply _ hb p q).trans (sumCol_apply _ _ hr hφ haccA hc p))).trans ?_
  unfold softmax
  exact congrArg (Ideal.div _) (Finset.sum_congr rfl fun k _ => he k)

end Cert.Lib.SoftmaxRows

end
-- ==== Proof.Spec.lean ====
/-
  The specification: cross attention between the two halves of the input, index by index, on the extended reals.

  The input x has shape [4, 2048, 2048]; its last axis splits into a left half (columns 0..1023, the vision
  representation) and a right half (columns 1024..2047, the text representation). Three linear layers y = u W^T + b
  give the queries (of the left half), the keys and the values (of the right half). The scores are the products of
  queries with keys, scaled by 1/32; each row of scores is normalized by the softmax; the first result is the
  attention weights times the values, the second the transposed attention weights times the left half.
-/
import Idealize.ShloMosaic.PureOps.Ideal
import Idealize.ShloMosaic.Lib.ValueIdx
import proofs.«179408_j30039001268913_2_alg».proof.Proof.LibSoftmaxRows

noncomputable section

open scoped BigOperators

namespace Cert.Spec

open Idealize.ShloMosaic Idealize.ShloMosaic.ValueIdx

/-- The input array. -/
abbrev Inp := (⟨3, ![4, 2048, 2048]⟩ : Shape).Idx → EReal
/-- A weight matrix. -/
abbrev Mat := (⟨2, ![1024, 1024]⟩ : Shape).Idx → EReal
/-- A bias vector. -/
abbrev Bias := (⟨1, ![1024]⟩ : Shape).Idx → EReal
/-- A result array. -/
abbrev Res := (⟨3, ![4, 2048, 1024]⟩ : Shape).Idx → EReal
/-- A [4, 2048, 1024] array by its coordinates. -/
abbrev Half := Fin 4 → Fin 2048 → Fin 1024 → EReal

/-- Column d of the left half is column d of the input. -/
abbrev colL (d : Fin 1024) : Fin 2048 := ⟨d.val, Nat.lt_of_lt_of_le d.isLt (by decide)⟩
/-- Column d of the right half is column 1024 + d of the input. -/
abbrev colR (d : Fin 1024) : Fin 2048 := ⟨1024 + d.val, by have := d.isLt; omega⟩

/-- The left half of the input. -/
def vis (x : Inp) : Half := fun b s d => x (ix3 b s (colL d))
/-- The right half of the input. -/
def txt (x : Inp) : Half := fun b s d => x (ix3 b s (colR d))

/-- A linear layer: entry (b, s, e) of u W^T + bias is the sum over d of u(b, s, d) W(e, d), plus bias(e). -/
def lin (u : Half) (W : Mat) (bias : Bias) : Half := fun b s e =>
  (∑ d : Fin 1024, u b s d * W (ix2 e d)) + bias (ix1 e)

/-- The scaling factor of the scores, 1/32, as the f32 word that spells it. -/
abbrev scale : EReal := Ideal.ofBits .f32 0x3D000000#32

/-- The scaled scores: entry (b, q, k) is the product of query row q with key row k, times the scale. -/
def scores (Q K : Half) (b : Fin 4) (q k : Fin 2048) : EReal := (∑ d : Fin 1024, Q b q d * K b k d) * scale

/-- The attention weights: each row of scores through the softmax. -/
def attn (Q K : Half) (b : Fin 4) (q k : Fin 2048) : EReal :=
  Cert.Lib.SoftmaxRows.softmax (fun k' : Fin 2048 => scores Q K b q k') k

/-- The attention weights times the values: entry (b, q, d) is the sum over k of attn(b, q, k) V(b, k, d). -/
def mixRows (Q K V : Half) : Half := fun b q d => ∑ k : Fin 2048, attn Q K b q k * V b k d

/-- The transposed attention weights times u: entry (b, k, d) is the sum over q of attn(b, q, k) u(b, q, d). -/
def mixCols (Q K u : Half) : Half := fun b k d => ∑ q : Fin 2048, attn Q K b q k * u b q d

/-- An array from its coordinate form. -/
def arr (h : Half) : Res := fun i => h (i 0) (i 1) (i 2)

theorem arr_apply (h : Half) (b : Fin 4) (s : Fin 2048) (d : Fin 1024) : arr h (ix3 b s d) = h b s d := rfl

variable (x : Inp) (Wq : Mat) (bq : Bias) (Wk : Mat) (bk : Bias) (Wv : Mat) (bv : Bias)

/-- The queries, keys and values. -/
def qry : Half := lin (vis x) Wq bq
def key : Half := lin (txt x) Wk bk
def vals : Half := lin (txt x) Wv bv

/-- The first result: the vision representation attended across the text. -/
def outVis : Res := arr (mixRows (qry x Wq bq) (key x Wk bk) (vals x Wv bv))
/-- The second result: the text positions' mixtures of the vision representation. -/
def outTxt : Res := arr (mixCols (qry x Wq bq) (key x Wk bk) (vis x))

end Cert.Spec

end
-- ==== Proof.RunMain.lean ====
/-
  The kernel program's run with its two result arrays named: every weakly fair execution of @main terminates, nothing
  faulting, with each result array holding what the second pallas_call's write-backs leave there and every argument
  array as launched. The run is the frame's: @main as a host stretch and two regions, each region's arrays at what its
  pipeline leaves; only the facts read off the final state are more.
-/
import proofs.«179408_j30039001268913_2_alg».proof.Proof.Gen.KernelIdeal.Frame

set_option maxRecDepth 16384

noncomputable section

namespace Cert.KernelIdeal.RunMain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the two results at the last boundary's contents, the arguments as launched. -/
theorem run_main : θ_run defs (onTc (τ := τ) (main (F := F))) ⟨m, fun _ => 0, ρ⟩ (fun r => ∀ c : Dev nD,
      r.2.mem ((c.tc : Thread nD τ).loc main_v10_0) = W3 m ρ c (Proc.devRef .tc main_v10_0)
      ∧ r.2.mem ((c.tc : Thread nD τ).loc main_v10_1) = W3 m ρ c (Proc.devRef .tc main_v10_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v10_0 (by decide)),
       h c _ (mem_uc main_v10_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

/-- The first result is the second pallas_call's window 4's array, the second its window 5's. -/
theorem res0_eq (c : Dev nD) : W3 m ρ c (Proc.devRef .tc main_v10_0) = (dat1 (V2 m ρ) c).arrAt 4 cfg1.N :=
  W3_arr m ρ c 4
theorem res1_eq (c : Dev nD) : W3 m ρ c (Proc.devRef .tc main_v10_1) = (dat1 (V2 m ρ) c).arrAt 5 cfg1.N :=
  W3_arr m ρ c 5

/-- What the second pallas_call reads: the first one's four result arrays, at what its write-backs left. -/
theorem in0_eq (c : Dev nD) : V2 m ρ c main_v9_0 = (dat0 (V1 m ρ) c).arrAt 7 cfg0.N := W2_arr m ρ c 7
theorem in1_eq (c : Dev nD) : V2 m ρ c main_v9_1 = (dat0 (V1 m ρ) c).arrAt 8 cfg0.N := W2_arr m ρ c 8
theorem in2_eq (c : Dev nD) : V2 m ρ c main_v9_2 = (dat0 (V1 m ρ) c).arrAt 9 cfg0.N := W2_arr m ρ c 9
theorem in3_eq (c : Dev nD) : V2 m ρ c main_v9_3 = (dat0 (V1 m ρ) c).arrAt 10 cfg0.N := W2_arr m ρ c 10

end Cert.KernelIdeal.RunMain

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.ProjValue.lean ====
/-
  The projection call, read: after it ran, its four result arrays hold the queries, the keys, the values and the left
  half of the input, as the specification names them, entry by entry on the extended reals.

  The call runs over 4 × 4 points; point t handles rows (t % 4) · 512 … (t % 4) · 512 + 511 of batch t / 4. At each
  point the body reads a [1, 512, 2048] block of the input, the three transposed weight matrices and the three biases
  as rows, and stores four [1, 512, 1024] blocks: for each linear layer, the block's half times the transposed weight
  plus the bias row, and the left half itself. Entry (r, e) of such a product is the sum over d of the half's (r, d)
  entry times the weight's (e, d) entry, which is the specification's linear layer at row (t % 4) · 512 + r of batch
  t / 4. The sixteen blocks of each result tile its array, so each array ends as the specification's array.
-/
import proofs.«179408_j30039001268913_2_alg».proof.Proof.Spec
import proofs.«179408_j30039001268913_2_alg».proof.Proof.LibMatmulPlain
import proofs.«179408_j30039001268913_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.ValueIdx
open Idealize.ShloMosaic.Pipeline (Dat)
open scoped BigOperators

namespace Cert.KernelIdeal.ProjValue

open Cert.KernelIdeal Cert.KernelIdeal.Gen

/-! ## The body's values at an entry -/

/-- Row r, column d of the left half of a [1, 512, 2048] block. -/
theorem left_apply (x0 : Vec Ideal S1x512x2048 .f32) (r : Fin 512) (d : Fin 1024) :
    k0_pay5 x0 (ix2 r d) = x0 (ix3 (0 : Fin 1) r (Cert.Spec.colL d)) := by
  unfold k0_pay5 k0_pay4
  show extractStridedSlice S512x1024 ![0, 0] (shapeCast S512x2048 x0 shapeCasts_S1x512x2048_S512x2048)
    slices_S512x2048_o0_0_S512x1024 (ix2 r d) = _
  refine (extractStridedSlice_apply _ _ _ (ix2 r d) (ix2 r (Cert.Spec.colL d)) ?_).trans ?_
  · intro a
    match a with
    | ⟨0, _⟩ => show r.val = 0 + r.val; omega
    | ⟨1, _⟩ => show d.val = 0 + d.val; omega
  · refine (shapeCast_dropUnit_apply _ _ _ _).trans ?_
    refine congrArg x0 (funext fun a => ?_)
    match a with
    | ⟨0, _⟩ => rfl
    | ⟨1, _⟩ => rfl
    | ⟨2, _⟩ => rfl

/-- Row r, column d of the right half of a [1, 512, 2048] block. -/
theorem right_apply (x0 : Vec Ideal S1x512x2048 .f32) (r : Fin 512) (d : Fin 1024) :
    k0_pay6 x0 (ix2 r d) = x0 (ix3 (0 : Fin 1) r (Cert.Spec.colR d)) := by
  unfold k0_pay6 k0_pay4
  show extractStridedSlice S512x1024 ![0, 1024] (shapeCast S512x2048 x0 shapeCasts_S1x512x2048_S512x2048)
    slices_S512x2048_o0_1024_S512x1024 (ix2 r d) = _
  refine (extractStridedSlice_apply _ _ _ (ix2 r d) (ix2 r (Cert.Spec.colR d)) ?_).trans ?_
  · intro a
    match a with
    | ⟨0, _⟩ => show r.val = 0 + r.val; omega
    | ⟨1, _⟩ => show 1024 + d.val = 1024 + d.val; rfl
  · refine (shapeCast_dropUnit_apply _ _ _ _).trans ?_
    refine congrArg x0 (funext fun a => ?_)
    match a with
    | ⟨0, _⟩ => rfl
    | ⟨1, _⟩ => rfl
    | ⟨2, _⟩ => rfl

/-- Entry (r, e) of u W + bias for a [512, 1024] block u, a [1024, 1024] matrix W and a [1, 1024] row bias. -/
theorem affine_apply (u : FVec Ideal S512x1024 .bf16) (w : Vec Ideal S1024x1024 .bf16) (bias : Vec Ideal S1x1024 .f32)
    (r : Fin 512) (e : Fin 1024) :
    (addf (matmul dot_S512x1024_S1024x1024_S512x1024_1_0_0_1_n_n none u
          (shapeCast S1024x1024 w shapeCasts_S1024x1024_S1024x1024 : FVec Ideal S1024x1024 .bf16)
          (constant (F := Ideal) S512x1024 .f32 0x00000000#32))
        (broadcastTo S512x1024 (shapeCast S1x1024 bias shapeCasts_S1x1024_S1x1024 : FVec Ideal S1x1024 .f32)
          broadcasts_S1x1024_S512x1024) : FVec Ideal S512x1024 .f32) (ix2 r e)
      = (∑ d : Fin 1024, u (ix2 r d) * w (ix2 d e)) + bias (ix2 (0 : Fin 1) e) := by
  rw [addf_apply, shapeCast_self, shapeCast_self]
  refine congrArg₂ (· + ·) ?_ ?_
  · exact Cert.LibMatmulPlain.matmul_zero_apply (M := 512) (K := 1024) (N := 1024)
      dot_S512x1024_S1024x1024_S512x1024_1_0_0_1_n_n_wf none u w r e
  · refine broadcastTo_apply _ _ (ix2 r e) (ix2 (0 : Fin 1) e) fun a => ?_
    match a with
    | ⟨0, _⟩ => rfl
    | ⟨1, _⟩ => rfl

/-- A [512, 1024] value stored as a [1, 512, 1024] block reads (z, r, e) at (r, e). -/
theorem addUnit_apply (v : FVec Ideal S512x1024 .bf16) (z : Fin 1) (r : Fin 512) (e : Fin 1024) :
    (shapeCast S1x512x1024 v shapeCasts_S512x1024_S1x512x1024 : FVec Ideal S1x512x1024 .bf16) (ix3 z r e) = v (ix2 r e) := by
  refine (shapeCast_addUnit_apply _ _ _ _).trans (congrArg v (funext fun a => ?_))
  match a with
  | ⟨0, _⟩ => rfl
  | ⟨1, _⟩ => rfl

/-- What the body stores for the queries, at an entry. -/
theorem storedQ_apply (x0 : Vec Ideal S1x512x2048 .f32) (w : Vec Ideal S1024x1024 .bf16) (bias : Vec Ideal S1x1024 .f32)
    (z : Fin 1) (r : Fin 512) (e : Fin 1024) :
    k0_pay8 x0 w bias (ix3 z r e)
      = (∑ d : Fin 1024, x0 (ix3 (0 : Fin 1) r (Cert.Spec.colL d)) * w (ix2 d e)) + bias (ix2 (0 : Fin 1) e) := by
  unfold k0_pay8
  refine (addUnit_apply _ z r e).trans ?_
  refine (affine_apply (k0_pay5 x0) w bias r e).trans ?_
  exact congrArg (· + bias (ix2 (0 : Fin 1) e)) (Finset.sum_congr rfl fun d _ => by rw [left_apply])

/-- What the body stores for the keys, at an entry. -/
theorem storedK_apply (x0 : Vec Ideal S1x512x2048 .f32) (w : Vec Ideal S1024x1024 .bf16) (bias : Vec Ideal S1x1024 .f32)
    (z : Fin 1) (r : Fin 512) (e : Fin 1024) :
    k0_pay1 (k0_pay9 x0 w bias) (ix3 z r e)
      = (∑ d : Fin 1024, x0 (ix3 (0 : Fin 1) r (Cert.Spec.colR d)) * w (ix2 d e)) + bias (ix2 (0 : Fin 1) e) := by
  unfold k0_pay1 k0_pay9
  refine (addUnit_apply _ z r e).trans ?_
  refine (affine_apply (k0_pay6 x0) w bias r e).trans ?_
  exact congrArg (· + bias (ix2 (0 : Fin 1) e)) (Finset.sum_congr rfl fun d _ => by rw [right_apply])

/-- What the body stores for the values, at an entry. -/
theorem storedV_apply (x0 : Vec Ideal S1x512x2048 .f32) (w : Vec Ideal S1024x1024 .bf16) (bias : Vec Ideal S1x1024 .f32)
    (z : Fin 1) (r : Fin 512) (e : Fin 1024) :
    k0_pay2 (k0_pay7 x0 w bias) (ix3 z r e)
      = (∑ d : Fin 1024, x0 (ix3 (0 : Fin 1) r (Cert.Spec.colR d)) * w (ix2 d e)) + bias (ix2 (0 : Fin 1) e) := by
  unfold k0_pay2 k0_pay7
  refine (addUnit_apply _ z r e).trans ?_
  refine (affine_apply (k0_pay6 x0) w bias r e).trans ?_
  exact congrArg (· + bias (ix2 (0 : Fin 1) e)) (Finset.sum_congr rfl fun d _ => by rw [right_apply])

/-- What the body stores for the left half, at an entry. -/
theorem storedL_apply (x0 : Vec Ideal S1x512x2048 .f32) (z : Fin 1) (r : Fin 512) (e : Fin 1024) :
    k0_pay3 (k0_pay5 x0) (ix3 z r e) = x0 (ix3 (0 : Fin 1) r (Cert.Spec.colL e)) := by
  unfold k0_pay3
  exact (addUnit_apply _ z r e).trans (left_apply x0 r e)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices at each grid point: point t is batch t / 4, row block t % 4. -/
theorem idx_facts : ∀ t : Fin cfg0.N,
    (win0_0.index t (0 : Fin 3) = t.val / 4 ∧ win0_0.index t (1 : Fin 3) = t.val % 4 ∧ win0_0.index t (2 : Fin 3) = 0)
    ∧ (win0_7.index t (0 : Fin 3) = t.val / 4 ∧ win0_7.index t (1 : Fin 3) = t.val % 4 ∧ win0_7.index t (2 : Fin 3) = 0)
    ∧ (win0_8.index t (0 : Fin 3) = t.val / 4 ∧ win0_8.index t (1 : Fin 3) = t.val % 4 ∧ win0_8.index t (2 : Fin 3) = 0)
    ∧ (win0_9.index t (0 : Fin 3) = t.val / 4 ∧ win0_9.index t (1 : Fin 3) = t.val % 4 ∧ win0_9.index t (2 : Fin 3) = 0)
    ∧ (win0_10.index t (0 : Fin 3) = t.val / 4 ∧ win0_10.index t (1 : Fin 3) = t.val % 4 ∧ win0_10.index t (2 : Fin 3) = 0) :=
  (by decide +kernel : ∀ t : Fin grid0.N, _)

/-- The weights' and biases' windows are the whole arrays at every point. -/
theorem idx_facts_whole : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-! ## What the region finds in the arrays it reads -/

theorem entry_x (c : Dev nD) : (V1 m ρ c main_arg0 : S4x2048x2048.Idx → EReal) = m ((c : Thread nD τ).loc main_arg0) := by
  dsimp only [V1, W1, hostOps0]; after_results

theorem entry_w1 (c : Dev nD) : (V1 m ρ c main_v1 : S1024x1024.Idx → EReal)
    = (truncf (F := Ideal) .bf16 (transpose S1024x1024 [1, 0] (m ((c : Thread nD τ).loc main_arg1) : FVec Ideal S1024x1024 .f32) transposes_S1024x1024_S1024x1024_1_0) bitsLt_bf16_f32 : FVec Ideal S1024x1024 .bf16) := by
  dsimp only [V1, W1, hostOps0]; after_results

theorem entry_w3 (c : Dev nD) : (V1 m ρ c main_v3 : S1024x1024.Idx → EReal)
    = (truncf (F := Ideal) .bf16 (transpose S1024x1024 [1, 0] (m ((c : Thread nD τ).loc main_arg3) : FVec Ideal S1024x1024 .f32) transposes_S1024x1024_S1024x1024_1_0) bitsLt_bf16_f32 : FVec Ideal S1024x1024 .bf16) := by
  dsimp only [V1, W1, hostOps0]; after_results

theorem entry_w5 (c : Dev nD) : (V1 m ρ c main_v5 : S1024x1024.Idx → EReal)
    = (truncf (F := Ideal) .bf16 (transpose S1024x1024 [1, 0] (m ((c : Thread nD τ).loc main_arg5) : FVec Ideal S1024x1024 .f32) transposes_S1024x1024_S1024x1024_1_0) bitsLt_bf16_f32 : FVec Ideal S1024x1024 .bf16) := by
  dsimp only [V1, W1, hostOps0]; after_results

theorem entry_b6 (c : Dev nD) : (V1 m ρ c main_v6 : S1x1024.Idx → EReal)
    = (shapeCast S1x1024 (m ((c : Thread nD τ).loc main_arg2) : FVec Ideal S1024 .f32) shapeCasts_S1024_S1x1024 : FVec Ideal S1x1024 .f32) := by
  dsimp only [V1, W1, hostOps0]; after_results; rfl

theorem entry_b7 (c : Dev nD) : (V1 m ρ c main_v7 : S1x1024.Idx → EReal)
    = (shapeCast S1x1024 (m ((c : Thread nD τ).loc main_arg4) : FVec Ideal S1024 .f32) shapeCasts_S1024_S1x1024 : FVec Ideal S1x1024 .f32) := by
  dsimp only [V1, W1, hostOps0]; after_results; rfl

theorem entry_b8 (c : Dev nD) : (V1 m ρ c main_v8 : S1x1024.Idx → EReal)
    = (shapeCast S1x1024 (m ((c : Thread nD τ).loc main_arg6) : FVec Ideal S1024 .f32) shapeCasts_S1024_S1x1024 : FVec Ideal S1x1024 .f32) := by
  dsimp only [V1, W1, hostOps0]; after_results; rfl

/-! ## The blocks the body reads, at a point -/

/-- The input window's block at point t is rows (t % 4) · 512 … of batch t / 4. -/
theorem blk_x_apply (c : Dev nD) (t : Fin cfg0.N) (x : S1x512x2048.Idx) (k : S4x2048x2048.Idx)
    (hk0 : (k 0).val = t.val / 4) (hk1 : (k 1).val = t.val % 4 * 512 + (x 1).val) (hk2 : (k 2).val = (x 2).val) :
    (iblk0 (V1 m ρ) c 0 t : Vec Ideal S1x512x2048 .f32) x
      = (m ((c : Thread nD τ).loc main_arg0) : S4x2048x2048.Idx → EReal) k := by
  obtain ⟨⟨h0, h1, h2⟩, -⟩ := idx_facts t
  unfold iblk0
  rw [View.read_apply]
  show V1 m ρ c main_arg0 (((cfg0.win 0).blk t).view.emb x) = _
  rw [entry_x]
  refine congrArg _ (funext fun a => Fin.ext ?_)
  match a with
  | ⟨0, _⟩ => show win0_0.index t (0 : Fin 3) * 1 + 1 * (x 0).val = (k 0).val; have hx : (x 0).val < 1 := (x 0).isLt; omega
  | ⟨1, _⟩ => show win0_0.index t (1 : Fin 3) * 512 + 1 * (x 1).val = (k 1).val; omega
  | ⟨2, _⟩ => show win0_0.index t (2 : Fin 3) * 2048 + 1 * (x 2).val = (k 2).val; omega

/-- The weight window 1's block, at every point, is the transposed matrix. -/
theorem blk_w1_apply (c : Dev nD) (t : Fin cfg0.N) (d e : Fin 1024) :
    (iblk0 (V1 m ρ) c 1 t : Vec Ideal S1024x1024 .bf16) (ix2 d e)
      = (m ((c : Thread nD τ).loc main_arg1) : S1024x1024.Idx → EReal) (ix2 e d) := by
  have h := idx_facts_whole t
  have h0 : win0_1.index t (0 : Fin 2) = 0 := by omega
  have h1 : win0_1.index t (1 : Fin 2) = 0 := by omega
  unfold iblk0
  rw [View.read_apply]
  show V1 m ρ c main_v1 (((cfg0.win 1).blk t).view.emb (ix2 d e)) = _
  rw [entry_w1]
  refine (transpose_apply _ _ _ _ (ix2 e d) fun b => ?_).trans rfl
  match b with
  | ⟨0, _⟩ => show d.val = win0_1.index t (0 : Fin 2) * 1024 + 1 * d.val; omega
  | ⟨1, _⟩ => show e.val = win0_1.index t (1 : Fin 2) * 1024 + 1 * e.val; omega

/-- The weight window 2's block, at every point, is the transposed matrix. -/
theorem blk_w2_apply (c : Dev nD) (t : Fin cfg0.N) (d e : Fin 1024) :
    (iblk0 (V1 m ρ) c 2 t : Vec Ideal S1024x1024 .bf16) (ix2 d e)
      = (m ((c : Thread nD τ).loc main_arg3) : S1024x1024.Idx → EReal) (ix2 e d) := by
  have h := idx_facts_whole t
  have h0 : win0_2.index t (0 : Fin 2) = 0 := by omega
  have h1 : win0_2.index t (1 : Fin 2) = 0 := by omega
  unfold iblk0
  rw [View.read_apply]
  show V1 m ρ c main_v3 (((cfg0.win 2).blk t).view.emb (ix2 d e)) = _
  rw [entry_w3]
  refine (transpose_apply _ _ _ _ (ix2 e d) fun b => ?_).trans rfl
  match b with
  | ⟨0, _⟩ => show d.val = win0_2.index t (0 : Fin 2) * 1024 + 1 * d.val; omega
  | ⟨1, _⟩ => show e.val = win0_2.index t (1 : Fin 2) * 1024 + 1 * e.val; omega

/-- The weight window 3's block, at every point, is the transposed matrix. -/
theorem blk_w3_apply (c : Dev nD) (t : Fin cfg0.N) (d e : Fin 1024) :
    (iblk0 (V1 m ρ) c 3 t : Vec Ideal S1024x1024 .bf16) (ix2 d e)
      = (m ((c : Thread nD τ).loc main_arg5) : S1024x1024.Idx → EReal) (ix2 e d) := by
  have h := idx_facts_whole t
  have h0 : win0_3.index t (0 : Fin 2) = 0 := by omega
  have h1 : win0_3.index t (1 : Fin 2) = 0 := by omega
  unfold iblk0
  rw [View.read_apply]
  show V1 m ρ c main_v5 (((cfg0.win 3).blk t).view.emb (ix2 d e)) = _
  rw [entry_w5]
  refine (transpose_apply _ _ _ _ (ix2 e d) fun b => ?_).trans rfl
  match b with
  | ⟨0, _⟩ => show d.val = win0_3.index t (0 : Fin 2) * 1024 + 1 * d.val; omega
  | ⟨1, _⟩ => show e.val = win0_3.index t (1 : Fin 2) * 1024 + 1 * e.val; omega

/-- The bias window 4's block, at every point, is the bias as a row. -/
theorem blk_b4_apply (c : Dev nD) (t : Fin cfg0.N) (z : Fin 1) (e : Fin 1024) :
    (iblk0 (V1 m ρ) c 4 t : Vec Ideal S1x1024 .f32) (ix2 z e)
      = (m ((c : Thread nD τ).loc main_arg2) : S1024.Idx → EReal) (ix1 e) := by
  have h := idx_facts_whole t
  have h0 : win0_4.index t (0 : Fin 2) = 0 := by omega
  have h1 : win0_4.index t (1 : Fin 2) = 0 := by omega
  unfold iblk0
  rw [View.read_apply]
  show V1 m ρ c main_v6 (((cfg0.win 4).blk t).view.emb (ix2 z e)) = _
  rw [entry_b6]
  refine shapeCast_apply _ _ _ (ix1 e) ?_
  rw [Shape.rowMajor_val_one, Shape.rowMajor_val_two]
  show e.val = (win0_4.index t (0 : Fin 2) * 1 + 1 * z.val) * 1024 + (win0_4.index t (1 : Fin 2) * 1024 + 1 * e.val)
  have := z.isLt
  omega

/-- The bias window 5's block, at every point, is the bias as a row. -/
theorem blk_b5_apply (c : Dev nD) (t : Fin cfg0.N) (z : Fin 1) (e : Fin 1024) :
    (iblk0 (V1 m ρ) c 5 t : Vec Ideal S1x1024 .f32) (ix2 z e)
      = (m ((c : Thread nD τ).loc main_arg4) : S1024.Idx → EReal) (ix1 e) := by
  have h := idx_facts_whole t
  have h0 : win0_5.index t (0 : Fin 2) = 0 := by omega
  have h1 : win0_5.index t (1 : Fin 2) = 0 := by omega
  unfold iblk0
  rw [View.read_apply]
  show V1 m ρ c main_v7 (((cfg0.win 5).blk t).view.emb (ix2 z e)) = _
  rw [entry_b7]
  refine shapeCast_apply _ _ _ (ix1 e) ?_
  rw [Shape.rowMajor_val_one, Shape.rowMajor_val_two]
  show e.val = (win0_5.index t (0 : Fin 2) * 1 + 1 * z.val) * 1024 + (win0_5.index t (1 : Fin 2) * 1024 + 1 * e.val)
  have := z.isLt
  omega

/-- The bias window 6's block, at every point, is the bias as a row. -/
theorem blk_b6_apply (c : Dev nD) (t : Fin cfg0.N) (z : Fin 1) (e : Fin 1024) :
    (iblk0 (V1 m ρ) c 6 t : Vec Ideal S1x1024 .f32) (ix2 z e)
      = (m ((c : Thread nD τ).loc main_arg6) : S1024.Idx → EReal) (ix1 e) := by
  have h := idx_facts_whole t
  have h0 : win0_6.index t (0 : Fin 2) = 0 := by omega
  have h1 : win0_6.index t (1 : Fin 2) = 0 := by omega
  unfold iblk0
  rw [View.read_apply]
  show V1 m ρ c main_v8 (((cfg0.win 6).blk t).view.emb (ix2 z e)) = _
  rw [entry_b8]
  refine shapeCast_apply _ _ _ (ix1 e) ?_
  rw [Shape.rowMajor_val_one, Shape.rowMajor_val_two]
  show e.val = (win0_6.index t (0 : Fin 2) * 1 + 1 * z.val) * 1024 + (win0_6.index t (1 : Fin 2) * 1024 + 1 * e.val)
  have := z.isLt
  omega

/-! ## The stored blocks are blocks of the specification's arrays -/

/-- Row s0 + r of the 2048 rows. -/
abbrev row (s0 : Nat) (hs : s0 + 512 ≤ 2048) (r : Fin 512) : Fin 2048 := ⟨s0 + r.val, by have := r.isLt; omega⟩

theorem q_entry (x0 : Vec Ideal S1x512x2048 .f32) (w : Vec Ideal S1024x1024 .bf16) (bias : Vec Ideal S1x1024 .f32)
    (X : Cert.Spec.Inp) (W : Cert.Spec.Mat) (bv : Cert.Spec.Bias) (b : Fin 4) (s0 : Nat) (hs : s0 + 512 ≤ 2048)
    (hx : ∀ (r : Fin 512) (k : Fin 2048), x0 (ix3 (0 : Fin 1) r k) = X (ix3 b (row s0 hs r) k))
    (hw : ∀ d e : Fin 1024, w (ix2 d e) = W (ix2 e d))
    (hb : ∀ e : Fin 1024, bias (ix2 (0 : Fin 1) e) = bv (ix1 e))
    (z : Fin 1) (r : Fin 512) (e : Fin 1024) :
    k0_pay8 x0 w bias (ix3 z r e) = Cert.Spec.qry X W bv b (row s0 hs r) e := by
  rw [storedQ_apply]
  unfold Cert.Spec.qry Cert.Spec.lin Cert.Spec.vis
  rw [hb]
  exact congrArg (· + bv (ix1 e)) (Finset.sum_congr rfl fun d _ => by rw [hx, hw])

theorem k_entry (x0 : Vec Ideal S1x512x2048 .f32) (w : Vec Ideal S1024x1024 .bf16) (bias : Vec Ideal S1x1024 .f32)
    (X : Cert.Spec.Inp) (W : Cert.Spec.Mat) (bv : Cert.Spec.Bias) (b : Fin 4) (s0 : Nat) (hs : s0 + 512 ≤ 2048)
    (hx : ∀ (r : Fin 512) (k : Fin 2048), x0 (ix3 (0 : Fin 1) r k) = X (ix3 b (row s0 hs r) k))
    (hw : ∀ d e : Fin 1024, w (ix2 d e) = W (ix2 e d))
    (hb : ∀ e : Fin 1024, bias (ix2 (0 : Fin 1) e) = bv (ix1 e))
    (z : Fin 1) (r : Fin 512) (e : Fin 1024) :
    k0_pay1 (k0_pay9 x0 w bias) (ix3 z r e) = Cert.Spec.key X W bv b (row s0 hs r) e := by
  rw [storedK_apply]
  unfold Cert.Spec.key Cert.Spec.lin Cert.Spec.txt
  rw [hb]
  exact congrArg (· + bv (ix1 e)) (Finset.sum_congr rfl fun d _ => by rw [hx, hw])

theorem v_entry (x0 : Vec Ideal S1x512x2048 .f32) (w : Vec Ideal S1024x1024 .bf16) (bias : Vec Ideal S1x1024 .f32)
    (X : Cert.Spec.Inp) (W : Cert.Spec.Mat) (bv : Cert.Spec.Bias) (b : Fin 4) (s0 : Nat) (hs : s0 + 512 ≤ 2048)
    (hx : ∀ (r : Fin 512) (k : Fin 2048), x0 (ix3 (0 : Fin 1) r k) = X (ix3 b (row s0 hs r) k))
    (hw : ∀ d e : Fin 1024, w (ix2 d e) = W (ix2 e d))
    (hb : ∀ e : Fin 1024, bias (ix2 (0 : Fin 1) e) = bv (ix1 e))
    (z : Fin 1) (r : Fin 512) (e : Fin 1024) :
    k0_pay2 (k0_pay7 x0 w bias) (ix3 z r e) = Cert.Spec.vals X W bv b (row s0 hs r) e := by
  rw [storedV_apply]
  unfold Cert.Spec.vals Cert.Spec.lin Cert.Spec.txt
  rw [hb]
  exact congrArg (· + bv (ix1 e)) (Finset.sum_congr rfl fun d _ => by rw [hx, hw])

theorem l_entry (x0 : Vec Ideal S1x512x2048 .f32)
    (X : Cert.Spec.Inp)  (b : Fin 4) (s0 : Nat) (hs : s0 + 512 ≤ 2048)
    (hx : ∀ (r : Fin 512) (k : Fin 2048), x0 (ix3 (0 : Fin 1) r k) = X (ix3 b (row s0 hs r) k))

    (z : Fin 1) (r : Fin 512) (e : Fin 1024) :
    k0_pay3 (k0_pay5 x0) (ix3 z r e) = Cert.Spec.vis X b (row s0 hs r) e := by
  rw [storedL_apply, hx]
  rfl

/-- A [1, 512, 1024] block whose entries are rows s0 … s0 + 511 of batch b of an array is that array read where the
    block lies. -/
theorem block_eq (P : S1x512x1024.Idx → EReal) (H : Cert.Spec.Half) (b : Fin 4) (s0 : Nat) (hs : s0 + 512 ≤ 2048)
    (hP : ∀ (z : Fin 1) (r : Fin 512) (e : Fin 1024), P (ix3 z r e) = H b (row s0 hs r) e)
    (y : S1x512x1024.Idx) (i : S4x2048x1024.Idx)
    (hi0 : (i 0).val = b.val) (hi1 : (i 1).val = s0 + (y 1).val) (hi2 : (i 2).val = (y 2).val) :
    P y = Cert.Spec.arr H i := by
  have e0 : i 0 = b := Fin.ext hi0
  have e1 : i 1 = row s0 hs (y 1) := Fin.ext hi1
  have e2 : i 2 = y 2 := Fin.ext hi2
  calc P y = P (ix3 (y 0) (y 1) (y 2)) := congrArg P (eq_ix3 y)
    _ = H b (row s0 hs (y 1)) (y 2) := hP (y 0) (y 1) (y 2)
    _ = Cert.Spec.arr H i := by unfold Cert.Spec.arr; rw [e0, e1, e2]

/-- What point t writes back through window 7 is block t of the array. -/
theorem flushed_q (c : Dev nD) (t : Fin cfg0.N) :
    (dat0 (V1 m ρ) c).flushed 7 t = ((cfg0.win 7).blk t).view.read (Elt Ideal) (Cert.Spec.arr (Cert.Spec.qry (m ((c : Thread nD τ).loc main_arg0)) (m ((c : Thread nD τ).loc main_arg1)) (m ((c : Thread nD τ).loc main_arg2)))) := by
  have hN : t.val < 16 := Nat.lt_of_lt_of_eq (show t.val < grid0.N from t.isLt) N_0
  have hf := idx_facts t
  obtain ⟨h0, h1, h2⟩ : win0_7.index t (0 : Fin 3) = t.val / 4 ∧ win0_7.index t (1 : Fin 3) = t.val % 4 ∧ win0_7.index t (2 : Fin 3) = 0 := hf.2.1
  show (cfg0.win 7).cut (grid0.coords t) ((dat0 (V1 m ρ) c).after 7 t) = _
  rw [after0_7]
  unfold out0_7
  rw [View.canon_unit_zero hz3]
  simp only [View.ld_unit_zero (S := S1x512x2048) hz3, View.ld_unit_zero (S := S1024x1024) hz2, View.ld_unit_zero (S := S1x1024) hz2]
  funext j
  show k0_pay8 (iblk0 (V1 m ρ) c 0 t) (iblk0 (V1 m ρ) c 1 t) (iblk0 (V1 m ρ) c 4 t) ((cfg0.win 7).xinj (grid0.coords t) j)
    = Cert.Spec.arr (Cert.Spec.qry (m ((c : Thread nD τ).loc main_arg0)) (m ((c : Thread nD τ).loc main_arg1)) (m ((c : Thread nD τ).loc main_arg2))) (((cfg0.win 7).blk t).view.emb j)
  refine block_eq (k0_pay8 (iblk0 (V1 m ρ) c 0 t) (iblk0 (V1 m ρ) c 1 t) (iblk0 (V1 m ρ) c 4 t)) (Cert.Spec.qry (m ((c : Thread nD τ).loc main_arg0)) (m ((c : Thread nD τ).loc main_arg1)) (m ((c : Thread nD τ).loc main_arg2))) ⟨t.val / 4, by omega⟩ (t.val % 4 * 512) (by omega) (fun z r e => ?_)
    ((cfg0.win 7).xinj (grid0.coords t) j) (((cfg0.win 7).blk t).view.emb j) ?_ ?_ ?_
  · exact q_entry (iblk0 (V1 m ρ) c 0 t) (iblk0 (V1 m ρ) c 1 t) (iblk0 (V1 m ρ) c 4 t) (m ((c : Thread nD τ).loc main_arg0)) (m ((c : Thread nD τ).loc main_arg1)) (m ((c : Thread nD τ).loc main_arg2)) ⟨t.val / 4, by omega⟩ (t.val % 4 * 512) (by omega)
      (fun r k => blk_x_apply m ρ c t _ _ rfl rfl rfl) (fun d e => blk_w1_apply m ρ c t d e) (fun e => blk_b4_apply m ρ c t 0 e) z r e
  · show win0_7.index t (0 : Fin 3) * 1 + 1 * (j 0).val = t.val / 4
    have hj : (j 0).val < 1 := (j 0).isLt
    omega
  · show win0_7.index t (1 : Fin 3) * 512 + 1 * (j 1).val = t.val % 4 * 512 + (j 1).val
    omega
  · show win0_7.index t (2 : Fin 3) * 1024 + 1 * (j 2).val = (j 2).val
    omega

/-- What point t writes back through window 8 is block t of the array. -/
theorem flushed_k (c : Dev nD) (t : Fin cfg0.N) :
    (dat0 (V1 m ρ) c).flushed 8 t = ((cfg0.win 8).blk t).view.read (Elt Ideal) (Cert.Spec.arr (Cert.Spec.key (m ((c : Thread nD τ).loc main_arg0)) (m ((c : Thread nD τ).loc main_arg3)) (m ((c : Thread nD τ).loc main_arg4)))) := by
  have hN : t.val < 16 := Nat.lt_of_lt_of_eq (show t.val < grid0.N from t.isLt) N_0
  have hf := idx_facts t
  obtain ⟨h0, h1, h2⟩ : win0_8.index t (0 : Fin 3) = t.val / 4 ∧ win0_8.index t (1 : Fin 3) = t.val % 4 ∧ win0_8.index t (2 : Fin 3) = 0 := hf.2.2.1
  show (cfg0.win 8).cut (grid0.coords t) ((dat0 (V1 m ρ) c).after 8 t) = _
  rw [after0_8]
  unfold out0_8
  rw [View.canon_unit_zero hz3]
  simp only [View.ld_unit_zero (S := S1x512x2048) hz3, View.ld_unit_zero (S := S1024x1024) hz2, View.ld_unit_zero (S := S1x1024) hz2]
  funext j
  show k0_pay1 (k0_pay9 (iblk0 (V1 m ρ) c 0 t) (iblk0 (V1 m ρ) c 2 t) (iblk0 (V1 m ρ) c 5 t)) ((cfg0.win 8).xinj (grid0.coords t) j)
    = Cert.Spec.arr (Cert.Spec.key (m ((c : Thread nD τ).loc main_arg0)) (m ((c : Thread nD τ).loc main_arg3)) (m ((c : Thread nD τ).loc main_arg4))) (((cfg0.win 8).blk t).view.emb j)
  refine block_eq (k0_pay1 (k0_pay9 (iblk0 (V1 m ρ) c 0 t) (iblk0 (V1 m ρ) c 2 t) (iblk0 (V1 m ρ) c 5 t))) (Cert.Spec.key (m ((c : Thread nD τ).loc main_arg0)) (m ((c : Thread nD τ).loc main_arg3)) (m ((c : Thread nD τ).loc main_arg4))) ⟨t.val / 4, by omega⟩ (t.val % 4 * 512) (by omega) (fun z r e => ?_)
    ((cfg0.win 8).xinj (grid0.coords t) j) (((cfg0.win 8).blk t).view.emb j) ?_ ?_ ?_
  · exact k_entry (iblk0 (V1 m ρ) c 0 t) (iblk0 (V1 m ρ) c 2 t) (iblk0 (V1 m ρ) c 5 t) (m ((c : Thread nD τ).loc main_arg0)) (m ((c : Thread nD τ).loc main_arg3)) (m ((c : Thread nD τ).loc main_arg4)) ⟨t.val / 4, by omega⟩ (t.val % 4 * 512) (by omega)
      (fun r k => blk_x_apply m ρ c t _ _ rfl rfl rfl) (fun d e => blk_w2_apply m ρ c t d e) (fun e => blk_b5_apply m ρ c t 0 e) z r e
  · show win0_8.index t (0 : Fin 3) * 1 + 1 * (j 0).val = t.val / 4
    have hj : (j 0).val < 1 := (j 0).isLt
    omega
  · show win0_8.index t (1 : Fin 3) * 512 + 1 * (j 1).val = t.val % 4 * 512 + (j 1).val
    omega
  · show win0_8.index t (2 : Fin 3) * 1024 + 1 * (j 2).val = (j 2).val
    omega

/-- What point t writes back through window 9 is block t of the array. -/
theorem flushed_v (c : Dev nD) (t : Fin cfg0.N) :
    (dat0 (V1 m ρ) c).flushed 9 t = ((cfg0.win 9).blk t).view.read (Elt Ideal) (Cert.Spec.arr (Cert.Spec.vals (m ((c : Thread nD τ).loc main_arg0)) (m ((c : Thread nD τ).loc main_arg5)) (m ((c : Thread nD τ).loc main_arg6)))) := by
  have hN : t.val < 16 := Nat.lt_of_lt_of_eq (show t.val < grid0.N from t.isLt) N_0
  have hf := idx_facts t
  obtain ⟨h0, h1, h2⟩ : win0_9.index t (0 : Fin 3) = t.val / 4 ∧ win0_9.index t (1 : Fin 3) = t.val % 4 ∧ win0_9.index t (2 : Fin 3) = 0 := hf.2.2.2.1
  show (cfg0.win 9).cut (grid0.coords t) ((dat0 (V1 m ρ) c).after 9 t) = _
  rw [after0_9]
  unfold out0_9
  rw [View.canon_unit_zero hz3]
  simp only [View.ld_unit_zero (S := S1x512x2048) hz3, View.ld_unit_zero (S := S1024x1024) hz2, View.ld_unit_zero (S := S1x1024) hz2]
  funext j
  show k0_pay2 (k0_pay7 (iblk0 (V1 m ρ) c 0 t) (iblk0 (V1 m ρ) c 3 t) (iblk0 (V1 m ρ) c 6 t)) ((cfg0.win 9).xinj (grid0.coords t) j)
    = Cert.Spec.arr (Cert.Spec.vals (m ((c : Thread nD τ).loc main_arg0)) (m ((c : Thread nD τ).loc main_arg5)) (m ((c : Thread nD τ).loc main_arg6))) (((cfg0.win 9).blk t).view.emb j)
  refine block_eq (k0_pay2 (k0_pay7 (iblk0 (V1 m ρ) c 0 t) (iblk0 (V1 m ρ) c 3 t) (iblk0 (V1 m ρ) c 6 t))) (Cert.Spec.vals (m ((c : Thread nD τ).loc main_arg0)) (m ((c : Thread nD τ).loc main_arg5)) (m ((c : Thread nD τ).loc main_arg6))) ⟨t.val / 4, by omega⟩ (t.val % 4 * 512) (by omega) (fun z r e => ?_)
    ((cfg0.win 9).xinj (grid0.coords t) j) (((cfg0.win 9).blk t).view.emb j) ?_ ?_ ?_
  · exact v_entry (iblk0 (V1 m ρ) c 0 t) (iblk0 (V1 m ρ) c 3 t) (iblk0 (V1 m ρ) c 6 t) (m ((c : Thread nD τ).loc main_arg0)) (m ((c : Thread nD τ).loc main_arg5)) (m ((c : Thread nD τ).loc main_arg6)) ⟨t.val / 4, by omega⟩ (t.val % 4 * 512) (by omega)
      (fun r k => blk_x_apply m ρ c t _ _ rfl rfl rfl) (fun d e => blk_w3_apply m ρ c t d e) (fun e => blk_b6_apply m ρ c t 0 e) z r e
  · show win0_9.index t (0 : Fin 3) * 1 + 1 * (j 0).val = t.val / 4
    have hj : (j 0).val < 1 := (j 0).isLt
    omega
  · show win0_9.index t (1 : Fin 3) * 512 + 1 * (j 1).val = t.val % 4 * 512 + (j 1).val
    omega
  · show win0_9.index t (2 : Fin 3) * 1024 + 1 * (j 2).val = (j 2).val
    omega

/-- What point t writes back through window 10 is block t of the array. -/
theorem flushed_l (c : Dev nD) (t : Fin cfg0.N) :
    (dat0 (V1 m ρ) c).flushed 10 t = ((cfg0.win 10).blk t).view.read (Elt Ideal) (Cert.Spec.arr (Cert.Spec.vis (m ((c : Thread nD τ).loc main_arg0)))) := by
  have hN : t.val < 16 := Nat.lt_of_lt_of_eq (show t.val < grid0.N from t.isLt) N_0
  have hf := idx_facts t
  obtain ⟨h0, h1, h2⟩ : win0_10.index t (0 : Fin 3) = t.val / 4 ∧ win0_10.index t (1 : Fin 3) = t.val % 4 ∧ win0_10.index t (2 : Fin 3) = 0 := hf.2.2.2.2
  show (cfg0.win 10).cut (grid0.coords t) ((dat0 (V1 m ρ) c).after 10 t) = _
  rw [after0_10]
  unfold out0_10
  rw [View.canon_unit_zero hz3]
  simp only [View.ld_unit_zero (S := S1x512x2048) hz3, View.ld_unit_zero (S := S1024x1024) hz2, View.ld_unit_zero (S := S1x1024) hz2]
  funext j
  show k0_pay3 (k0_pay5 (iblk0 (V1 m ρ) c 0 t)) ((cfg0.win 10).xinj (grid0.coords t) j)
    = Cert.Spec.arr (Cert.Spec.vis (m ((c : Thread nD τ).loc main_arg0))) (((cfg0.win 10).blk t).view.emb j)
  refine block_eq (k0_pay3 (k0_pay5 (iblk0 (V1 m ρ) c 0 t))) (Cert.Spec.vis (m ((c : Thread nD τ).loc main_arg0))) ⟨t.val / 4, by omega⟩ (t.val % 4 * 512) (by omega) (fun z r e => ?_)
    ((cfg0.win 10).xinj (grid0.coords t) j) (((cfg0.win 10).blk t).view.emb j) ?_ ?_ ?_
  · exact l_entry (iblk0 (V1 m ρ) c 0 t) (m ((c : Thread nD τ).loc main_arg0)) ⟨t.val / 4, by omega⟩ (t.val % 4 * 512) (by omega)
      (fun r k => blk_x_apply m ρ c t _ _ rfl rfl rfl) z r e
  · show win0_10.index t (0 : Fin 3) * 1 + 1 * (j 0).val = t.val / 4
    have hj : (j 0).val < 1 := (j 0).isLt
    omega
  · show win0_10.index t (1 : Fin 3) * 512 + 1 * (j 1).val = t.val % 4 * 512 + (j 1).val
    omega
  · show win0_10.index t (2 : Fin 3) * 1024 + 1 * (j 2).val = (j 2).val
    omega

/-! ## The blocks cover the arrays -/

/-- An entry of the array is in point t's block of window 7 iff each coordinate is in the block's range. -/
theorem mem_blk_q (t : Fin cfg0.N) (i : S4x2048x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v9_0).slice (win0_7.rect t)).set ↔ _
  rw [View.set_slice_whole, Rect.mem_set_unit]
  exact Iff.rfl

/-- Row s of batch b is in the block of point 4 b + s / 512. -/
theorem cover_q (i : S4x2048x1024.Idx) :
    ∃ t : Fin cfg0.N, (cfg0.win 7).flush t = true ∧ i ∈ ((cfg0.win 7).blk t).view.set := by
  have hi0 : (i 0).val < 4 := (i 0).isLt
  have hi1 : (i 1).val < 2048 := (i 1).isLt
  have hi2 : (i 2).val < 1024 := (i 2).isLt
  obtain ⟨t, ht⟩ : ∃ t : Fin cfg0.N, t.val = (i 0).val * 4 + (i 1).val / 512 :=
    ⟨⟨(i 0).val * 4 + (i 1).val / 512, Nat.lt_of_lt_of_eq (show (i 0).val * 4 + (i 1).val / 512 < 16 by omega) N_0.symm⟩, rfl⟩
  have hf := idx_facts t
  obtain ⟨h0, h1, h2⟩ : win0_7.index t (0 : Fin 3) = t.val / 4 ∧ win0_7.index t (1 : Fin 3) = t.val % 4 ∧ win0_7.index t (2 : Fin 3) = 0 := hf.2.1
  refine ⟨t, flush0_7 t, ?_⟩
  rw [mem_blk_q]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 1024 ≤ (i 2).val ∧ (i 2).val < win0_7.index t (2 : Fin 3) * 1024 + 1024; omega

/-- An entry of the array is in point t's block of window 8 iff each coordinate is in the block's range. -/
theorem mem_blk_k (t : Fin cfg0.N) (i : S4x2048x1024.Idx) :
    i ∈ ((cfg0.win 8).blk t).view.set ↔ ∀ a : Fin 3, win0_8.index t a * S1x512x1024.size a ≤ (i a).val
      ∧ (i a).val < win0_8.index t a * S1x512x1024.size a + S1x512x1024.size a := by
  show i ∈ ((View.whole main_v9_1).slice (win0_8.rect t)).set ↔ _
  rw [View.set_slice_whole, Rect.mem_set_unit]
  exact Iff.rfl

/-- Row s of batch b is in the block of point 4 b + s / 512. -/
theorem cover_k (i : S4x2048x1024.Idx) :
    ∃ t : Fin cfg0.N, (cfg0.win 8).flush t = true ∧ i ∈ ((cfg0.win 8).blk t).view.set := by
  have hi0 : (i 0).val < 4 := (i 0).isLt
  have hi1 : (i 1).val < 2048 := (i 1).isLt
  have hi2 : (i 2).val < 1024 := (i 2).isLt
  obtain ⟨t, ht⟩ : ∃ t : Fin cfg0.N, t.val = (i 0).val * 4 + (i 1).val / 512 :=
    ⟨⟨(i 0).val * 4 + (i 1).val / 512, Nat.lt_of_lt_of_eq (show (i 0).val * 4 + (i 1).val / 512 < 16 by omega) N_0.symm⟩, rfl⟩
  have hf := idx_facts t
  obtain ⟨h0, h1, h2⟩ : win0_8.index t (0 : Fin 3) = t.val / 4 ∧ win0_8.index t (1 : Fin 3) = t.val % 4 ∧ win0_8.index t (2 : Fin 3) = 0 := hf.2.2.1
  refine ⟨t, flush0_8 t, ?_⟩
  rw [mem_blk_k]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 1024 ≤ (i 2).val ∧ (i 2).val < win0_8.index t (2 : Fin 3) * 1024 + 1024; omega

/-- An entry of the array is in point t's block of window 9 iff each coordinate is in the block's range. -/
theorem mem_blk_v (t : Fin cfg0.N) (i : S4x2048x1024.Idx) :
    i ∈ ((cfg0.win 9).blk t).view.set ↔ ∀ a : Fin 3, win0_9.index t a * S1x512x1024.size a ≤ (i a).val
      ∧ (i a).val < win0_9.index t a * S1x512x1024.size a + S1x512x1024.size a := by
  show i ∈ ((View.whole main_v9_2).slice (win0_9.rect t)).set ↔ _
  rw [View.set_slice_whole, Rect.mem_set_unit]
  exact Iff.rfl

/-- Row s of batch b is in the block of point 4 b + s / 512. -/
theorem cover_v (i : S4x2048x1024.Idx) :
    ∃ t : Fin cfg0.N, (cfg0.win 9).flush t = true ∧ i ∈ ((cfg0.win 9).blk t).view.set := by
  have hi0 : (i 0).val < 4 := (i 0).isLt
  have hi1 : (i 1).val < 2048 := (i 1).isLt
  have hi2 : (i 2).val < 1024 := (i 2).isLt
  obtain ⟨t, ht⟩ : ∃ t : Fin cfg0.N, t.val = (i 0).val * 4 + (i 1).val / 512 :=
    ⟨⟨(i 0).val * 4 + (i 1).val / 512, Nat.lt_of_lt_of_eq (show (i 0).val * 4 + (i 1).val / 512 < 16 by omega) N_0.symm⟩, rfl⟩
  have hf := idx_facts t
  obtain ⟨h0, h1, h2⟩ : win0_9.index t (0 : Fin 3) = t.val / 4 ∧ win0_9.index t (1 : Fin 3) = t.val % 4 ∧ win0_9.index t (2 : Fin 3) = 0 := hf.2.2.2.1
  refine ⟨t, flush0_9 t, ?_⟩
  rw [mem_blk_v]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 1024 ≤ (i 2).val ∧ (i 2).val < win0_9.index t (2 : Fin 3) * 1024 + 1024; omega

/-- An entry of the array is in point t's block of window 10 iff each coordinate is in the block's range. -/
theorem mem_blk_l (t : Fin cfg0.N) (i : S4x2048x1024.Idx) :
    i ∈ ((cfg0.win 10).blk t).view.set ↔ ∀ a : Fin 3, win0_10.index t a * S1x512x1024.size a ≤ (i a).val
      ∧ (i a).val < win0_10.index t a * S1x512x1024.size a + S1x512x1024.size a := by
  show i ∈ ((View.whole main_v9_3).slice (win0_10.rect t)).set ↔ _
  rw [View.set_slice_whole, Rect.mem_set_unit]
  exact Iff.rfl

/-- Row s of batch b is in the block of point 4 b + s / 512. -/
theorem cover_l (i : S4x2048x1024.Idx) :
    ∃ t : Fin cfg0.N, (cfg0.win 10).flush t = true ∧ i ∈ ((cfg0.win 10).blk t).view.set := by
  have hi0 : (i 0).val < 4 := (i 0).isLt
  have hi1 : (i 1).val < 2048 := (i 1).isLt
  have hi2 : (i 2).val < 1024 := (i 2).isLt
  obtain ⟨t, ht⟩ : ∃ t : Fin cfg0.N, t.val = (i 0).val * 4 + (i 1).val / 512 :=
    ⟨⟨(i 0).val * 4 + (i 1).val / 512, Nat.lt_of_lt_of_eq (show (i 0).val * 4 + (i 1).val / 512 < 16 by omega) N_0.symm⟩, rfl⟩
  have hf := idx_facts t
  obtain ⟨h0, h1, h2⟩ : win0_10.index t (0 : Fin 3) = t.val / 4 ∧ win0_10.index t (1 : Fin 3) = t.val % 4 ∧ win0_10.index t (2 : Fin 3) = 0 := hf.2.2.2.2
  refine ⟨t, flush0_10 t, ?_⟩
  rw [mem_blk_l]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 512 ≤ (i 1).val ∧ (i 1).val < win0_10.index t (1 : Fin 3) * 512 + 512; omega
  | ⟨2, _⟩ => show win0_10.index t (2 : Fin 3) * 1024 ≤ (i 2).val ∧ (i 2).val < win0_10.index t (2 : Fin 3) * 1024 + 1024; omega

/-! ## The four arrays after the projection call -/

/-- The queries: the left half through the first linear layer. -/
theorem proj_q (c : Dev nD) : (dat0 (V1 m ρ) c).arrAt 7 cfg0.N
    = Cert.Spec.arr (Cert.Spec.qry (m ((c : Thread nD τ).loc main_arg0)) (m ((c : Thread nD τ).loc main_arg1)) (m ((c : Thread nD τ).loc main_arg2))) :=
  (dat0 (V1 m ρ) c).arrAt_eq_of_cover 7 _ (fun t _ => flushed_q m ρ c t) cover_q

/-- The keys: the right half through the second linear layer. -/
theorem proj_k (c : Dev nD) : (dat0 (V1 m ρ) c).arrAt 8 cfg0.N
    = Cert.Spec.arr (Cert.Spec.key (m ((c : Thread nD τ).loc main_arg0)) (m ((c : Thread nD τ).loc main_arg3)) (m ((c : Thread nD τ).loc main_arg4))) :=
  (dat0 (V1 m ρ) c).arrAt_eq_of_cover 8 _ (fun t _ => flushed_k m ρ c t) cover_k

/-- The values: the right half through the third linear layer. -/
theorem proj_v (c : Dev nD) : (dat0 (V1 m ρ) c).arrAt 9 cfg0.N
    = Cert.Spec.arr (Cert.Spec.vals (m ((c : Thread nD τ).loc main_arg0)) (m ((c : Thread nD τ).loc main_arg5)) (m ((c : Thread nD τ).loc main_arg6))) :=
  (dat0 (V1 m ρ) c).arrAt_eq_of_cover 9 _ (fun t _ => flushed_v m ρ c t) cover_v

/-- The left half itself. -/
theorem proj_vis (c : Dev nD) : (dat0 (V1 m ρ) c).arrAt 10 cfg0.N
    = Cert.Spec.arr (Cert.Spec.vis (m ((c : Thread nD τ).loc main_arg0))) :=
  (dat0 (V1 m ρ) c).arrAt_eq_of_cover 10 _ (fun t _ => flushed_l m ρ c t) cover_l

end Cert.KernelIdeal.ProjValue

end
-- ==== Proof.AttnCases.lean ====
/-
  What one grid point of the attention pallas_call leaves in its two output blocks, in each of the body's two cases.

  The body computes, from the point's query block x0, key block x1, value block x2 and vision block x3, the block of
  attention weights; it stores their product with the values into the first output's block, and adds their transposed
  product with the vision block into the second output's block — which, at the first query tile of a batch (case A), it
  has just filled with zeros, and otherwise (case B) still holds what the point before left (xo).
-/
import proofs.«179408_j30039001268913_2_alg».proof.Proof.Gen.KernelIdeal.Frame
import Idealize.ShloMosaic.Lib.Pipeline.Value
import Idealize.ShloMosaic.Lib.Tactic

set_option maxRecDepth 16384

noncomputable section

namespace Cert.KernelIdeal.AttnCases

open Cert.KernelIdeal Cert.KernelIdeal.Gen
open Idealize.ShloMosaic Idealize.ShloMosaic.TcCoe Idealize.SL.Sem
open Idealize.ShloMosaic.Pipeline (Dat)

variable {F : FTy → Type} [FloatOps F]

theorem hz3 : (![0, 0, 0] : Fin 3 → Nat) = fun _ => 0 := funext fun a => by fin_cases a <;> rfl

/-- Case B, second output: what the block held, plus the transposed weights times the vision block. -/
theorem out_B_5 (c : Dev nD) (i : grid1.Coords) (a2 : Memref sig .tc .vmem S1x256x1024 .bf16) (h2 : a2.IsWhole)
    (a3 : Memref sig .tc .vmem S1x2048x1024 .bf16) (h3 : a3.IsWhole) (a4 : Memref sig .tc .vmem S1x2048x1024 .bf16) (h4 : a4.IsWhole)
    (a5 : Memref sig .tc .vmem S1x256x1024 .bf16) (h5 : a5.IsWhole) (a6 : Memref sig .tc .vmem S1x256x1024 .f32) (h6 : a6.IsWhole)
    (a7 : Memref sig .tc .vmem S1x2048x1024 .f32) (h7 : a7.IsWhole) (hc : ¬cond1_0 i)
    (x0 : Vec F S1x256x1024 .bf16) (x1 : Vec F S1x2048x1024 .bf16) (x2 : Vec F S1x2048x1024 .bf16) (x3 : Vec F S1x256x1024 .bf16) (xo5 : Vec F S1x2048x1024 .f32) :
    out1_B_5 c i a2 h2 a3 h3 a4 h4 a5 h5 a6 h6 a7 h7 hc x0 x1 x2 x3 xo5 = k1_pay1 (k1_pay5 x0 x1 x3) xo5 := by
  unfold out1_B_5
  rw [View.read_writes_eq_canon _ _ _ (cover1_B_5 c i a2 h2 a3 h3 a4 h4 a5 h5 a6 h6 a7 h7 hc x0 x1 x2 x3 xo5)]
  unfold kernelRun1_B
  dsimp only
  sl_unfold_words
  rw [View.canon_unit_zero hz3]
  simp only [View.readAt_eq_ld, h2.read_unread, h3.read_unread, h4.read_unread, h5.read_unread, h7.read_unread,
    View.ld_unit_zero (S := S1x256x1024) hz3, View.ld_unit_zero (S := S1x2048x1024) hz3]

/-- Case A, second output: the zero block, plus the transposed weights times the vision block. -/
theorem out_A_5 (c : Dev nD) (i : grid1.Coords) (a2 : Memref sig .tc .vmem S1x256x1024 .bf16) (h2 : a2.IsWhole)
    (a3 : Memref sig .tc .vmem S1x2048x1024 .bf16) (h3 : a3.IsWhole) (a4 : Memref sig .tc .vmem S1x2048x1024 .bf16) (h4 : a4.IsWhole)
    (a5 : Memref sig .tc .vmem S1x256x1024 .bf16) (h5 : a5.IsWhole) (a6 : Memref sig .tc .vmem S1x256x1024 .f32) (h6 : a6.IsWhole)
    (a7 : Memref sig .tc .vmem S1x2048x1024 .f32) (h7 : a7.IsWhole) (hc : cond1_0 i)
    (x0 : Vec F S1x256x1024 .bf16) (x1 : Vec F S1x2048x1024 .bf16) (x2 : Vec F S1x2048x1024 .bf16) (x3 : Vec F S1x256x1024 .bf16) :
    out1_A_5 c i a2 h2 a3 h3 a4 h4 a5 h5 a6 h6 a7 h7 hc x0 x1 x2 x3 = k1_pay1 (k1_pay5 x0 x1 x3) (k1_pay2 (F := F)) := by
  unfold out1_A_5
  rw [View.read_writes_eq_canon _ _ _ (cover1_A_5 c i a2 h2 a3 h3 a4 h4 a5 h5 a6 h6 a7 h7 hc x0 x1 x2 x3)]
  unfold kernelRun1_A
  dsimp only
  sl_unfold_words
  rw [View.canon_cons_unit_zero (S := S1x2048x1024) hz3, View.readCov_unit_zero (S := S1x2048x1024) _ hz3]
  simp only [View.readAt_eq_ld, h2.read_unread, h3.read_unread, h4.read_unread, h5.read_unread, h7.read_unread,
    View.ld_unit_zero (S := S1x256x1024) hz3, View.ld_unit_zero (S := S1x2048x1024) hz3]

/-- Case B, first output: the weights times the values. -/
theorem out_B_4 (c : Dev nD) (i : grid1.Coords) (a2 : Memref sig .tc .vmem S1x256x1024 .bf16) (h2 : a2.IsWhole)
    (a3 : Memref sig .tc .vmem S1x2048x1024 .bf16) (h3 : a3.IsWhole) (a4 : Memref sig .tc .vmem S1x2048x1024 .bf16) (h4 : a4.IsWhole)
    (a5 : Memref sig .tc .vmem S1x256x1024 .bf16) (h5 : a5.IsWhole) (a6 : Memref sig .tc .vmem S1x256x1024 .f32) (h6 : a6.IsWhole)
    (a7 : Memref sig .tc .vmem S1x2048x1024 .f32) (h7 : a7.IsWhole) (hc : ¬cond1_0 i)
    (x0 : Vec F S1x256x1024 .bf16) (x1 : Vec F S1x2048x1024 .bf16) (x2 : Vec F S1x2048x1024 .bf16) (x3 : Vec F S1x256x1024 .bf16) (xo5 : Vec F S1x2048x1024 .f32) :
    out1_B_4 c i a2 h2 a3 h3 a4 h4 a5 h5 a6 h6 a7 h7 hc x0 x1 x2 x3 xo5 = k1_pay4 x0 x1 x2 := by
  unfold out1_B_4
  rw [View.read_writes_eq_canon _ _ _ (cover1_B_4 c i a2 h2 a3 h3 a4 h4 a5 h5 a6 h6 a7 h7 hc x0 x1 x2 x3 xo5)]
  unfold kernelRun1_B
  dsimp only
  sl_unfold_words
  rw [View.canon_unit_zero hz3]
  simp only [View.readAt_eq_ld, h2.read_unread, h3.read_unread, h4.read_unread, h5.read_unread, h7.read_unread,
    View.ld_unit_zero (S := S1x256x1024) hz3, View.ld_unit_zero (S := S1x2048x1024) hz3]

/-- Case A, first output: the weights times the values. -/
theorem out_A_4 (c : Dev nD) (i : grid1.Coords) (a2 : Memref sig .tc .vmem S1x256x1024 .bf16) (h2 : a2.IsWhole)
    (a3 : Memref sig .tc .vmem S1x2048x1024 .bf16) (h3 : a3.IsWhole) (a4 : Memref sig .tc .vmem S1x2048x1024 .bf16) (h4 : a4.IsWhole)
    (a5 : Memref sig .tc .vmem S1x256x1024 .bf16) (h5 : a5.IsWhole) (a6 : Memref sig .tc .vmem S1x256x1024 .f32) (h6 : a6.IsWhole)
    (a7 : Memref sig .tc .vmem S1x2048x1024 .f32) (h7 : a7.IsWhole) (hc : cond1_0 i)
    (x0 : Vec F S1x256x1024 .bf16) (x1 : Vec F S1x2048x1024 .bf16) (x2 : Vec F S1x2048x1024 .bf16) (x3 : Vec F S1x256x1024 .bf16) :
    out1_A_4 c i a2 h2 a3 h3 a4 h4 a5 h5 a6 h6 a7 h7 hc x0 x1 x2 x3 = k1_pay4 x0 x1 x2 := by
  unfold out1_A_4
  rw [View.read_writes_eq_canon _ _ _ (cover1_A_4 c i a2 h2 a3 h3 a4 h4 a5 h5 a6 h6 a7 h7 hc x0 x1 x2 x3)]
  unfold kernelRun1_A
  dsimp only
  sl_unfold_words
  rw [View.canon_unit_zero hz3]
  simp only [View.readAt_eq_ld, h2.read_unread, h3.read_unread, h4.read_unread, h5.read_unread, h7.read_unread,
    View.ld_unit_zero (S := S1x256x1024) hz3, View.ld_unit_zero (S := S1x2048x1024) hz3]

end Cert.KernelIdeal.AttnCases

end
-- ==== Proof.LibMatmulRows.lean ====
/-
  The product of an [M, K] matrix by the TRANSPOSE of an [N, K] matrix, read at an entry, on the extended reals, for any
  extents and element formats: both operands are contracted along their second axis, so entry (p, n) of the product
  taken into a zero accumulator is the sum over k of the left matrix's (p, k) entry times the right matrix's (n, k)
  entry — row p of the left against row n of the right; taken into an accumulator acc it is acc's entry plus that sum.
-/
import Idealize.ShloMosaic.PureOps.Ideal.Laws
import Idealize.ShloMosaic.Lib.ValueIdx

noncomputable section

namespace Cert.LibMatmulRows

open Idealize.ShloMosaic Idealize.ShloMosaic.ValueIdx

/-- The dimension numbers of a row-against-row product: contract the left matrix's columns with the right one's columns. -/
abbrev rowsDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row coordinate is the output entry's row. -/
theorem lhsIdx_row (j : (⟨2, ![M, N]⟩ : Shape).Idx) (q : (rowsDims M K N wf).contr.Idx) :
    ((rowsDims M K N wf).lhsIdx j q 0).val = (j 0).val := by
  unfold DotDims.lhsIdx
  rw [dif_neg (show ¬(0 : Fin 2) ∈ (rowsDims M K N wf).lhsBatch from List.not_mem_nil),
    dif_pos (show (0 : Fin 2) ∈ (rowsDims M K N wf).lhsNonContracting from List.mem_singleton.mpr rfl)]
  rfl

/-- The right operand's ROW coordinate is the output entry's column. -/
theorem rhsIdx_row (j : (⟨2, ![M, N]⟩ : Shape).Idx) (q : (rowsDims M K N wf).contr.Idx) :
    ((rowsDims M K N wf).rhsIdx j q 0).val = (j 1).val := by
  unfold DotDims.rhsIdx
  rw [dif_neg (show ¬(0 : Fin 2) ∈ (rowsDims M K N wf).rhsBatch from List.not_mem_nil),
    dif_pos (show (0 : Fin 2) ∈ (rowsDims M K N wf).rhsNonContracting from List.mem_singleton.mpr rfl)]
  rfl

/-- The left operand's index for output entry (p, n) and contraction index k is (p, k). -/
theorem lhsIdx_eq (p : Fin M) (n : Fin N) (k : Fin K) :
    (rowsDims M K N wf).lhsIdx (ix2 p n) ((contrEquiv1 (rowsDims M K N wf) K rfl rfl).symm k) = ix2 p k := by
  have hk := contrEquiv1_symm_val (rowsDims M K N wf) K rfl rfl k
  funext a
  refine Fin.ext ?_
  match a with
  | ⟨0, _⟩ => exact lhsIdx_row wf _ _
  | ⟨1, _⟩ => exact ((rowsDims M K N wf).lhsIdx_val_of_single rfl _ _).trans hk

/-- The right operand's index for output entry (p, n) and contraction index k is (n, k). -/
theorem rhsIdx_eq (p : Fin M) (n : Fin N) (k : Fin K) :
    (rowsDims M K N wf).rhsIdx (ix2 p n) ((contrEquiv1 (rowsDims M K N wf) K rfl rfl).symm k) = ix2 n k := by
  have hk := contrEquiv1_symm_val (rowsDims M K N wf) K rfl rfl k
  funext a
  refine Fin.ext ?_
  match a with
  | ⟨0, _⟩ => exact rhsIdx_row wf _ _
  | ⟨1, _⟩ => exact ((rowsDims M K N wf).rhsIdx_val_of_single rfl _ _).trans hk

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![N, K]⟩ φ₂) (acc : FVec Ideal ⟨2, ![M, N]⟩ .f32)
    (p : Fin M) (n : Fin N) :
    FloatOps.matmul (rowsDims M K N wf) prec lhs rhs acc (ix2 p n)
      = acc (ix2 p n) + ∑ k : Fin K, lhs (ix2 p k) * rhs (ix2 n k) := by
  rw [Ideal.matmul_apply, ← Equiv.sum_comp (contrEquiv1 (rowsDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![N, K]⟩ φ₂) (p : Fin M) (n : Fin N) :
    FloatOps.matmul (rowsDims M K N wf) prec lhs rhs (constant ⟨2, ![M, N]⟩ .f32 0x00000000#32) (ix2 p n)
      = ∑ k : Fin K, lhs (ix2 p k) * rhs (ix2 n k) := by
  rw [matmul_apply wf prec lhs rhs _ p n]
  show Ideal.ofBits .f32 0x00000000#32 + _ = _
  rw [Ideal.ofBits_zero_f32, zero_add]

end Cert.LibMatmulRows

end
-- ==== Proof.LibMatmulCols.lean ====
/-
  The product of the TRANSPOSE of a [K, M] matrix by a [K, N] matrix, read at an entry, on the extended reals, for any
  extents and element formats: both operands are contracted along their first axis, so entry (p, n) of the product
  taken into a zero accumulator is the sum over k of the left matrix's (k, p) entry times the right matrix's (k, n)
  entry — column p of the left against column n of the right; taken into an accumulator acc it is acc's entry plus
  that sum.
-/
import Idealize.ShloMosaic.PureOps.Ideal.Laws
import Idealize.ShloMosaic.Lib.ValueIdx

noncomputable section

namespace Cert.LibMatmulCols

open Idealize.ShloMosaic Idealize.ShloMosaic.ValueIdx

/-- The dimension numbers of a column-against-column product: contract the left matrix's rows with the right one's rows. -/
abbrev colsDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable {K M N : Nat} (wf : DotDims.WF ⟨2, ![K, M]⟩ ⟨2, ![K, N]⟩ ⟨2, ![M, N]⟩ [0] [0] [1] [1] [] [])

/-- The left operand's column coordinate is the output entry's row. -/
theorem lhsIdx_col (j : (⟨2, ![M, N]⟩ : Shape).Idx) (q : (colsDims K M N wf).contr.Idx) :
    ((colsDims K M N wf).lhsIdx j q 1).val = (j 0).val := by
  unfold DotDims.lhsIdx
  rw [dif_neg (show ¬(1 : Fin 2) ∈ (colsDims K M N wf).lhsBatch from List.not_mem_nil),
    dif_pos (show (1 : Fin 2) ∈ (colsDims K M N wf).lhsNonContracting from List.mem_singleton.mpr rfl)]
  rfl

/-- The right operand's column coordinate is the output entry's column. -/
theorem rhsIdx_col (j : (⟨2, ![M, N]⟩ : Shape).Idx) (q : (colsDims K M N wf).contr.Idx) :
    ((colsDims K M N wf).rhsIdx j q 1).val = (j 1).val := by
  unfold DotDims.rhsIdx
  rw [dif_neg (show ¬(1 : Fin 2) ∈ (colsDims K M N wf).rhsBatch from List.not_mem_nil),
    dif_pos (show (1 : Fin 2) ∈ (colsDims K M N wf).rhsNonContracting from List.mem_singleton.mpr rfl)]
  rfl

/-- The left operand's index for output entry (p, n) and contraction index k is (k, p). -/
theorem lhsIdx_eq (p : Fin M) (n : Fin N) (k : Fin K) :
    (colsDims K M N wf).lhsIdx (ix2 p n) ((contrEquiv1 (colsDims K M N wf) K rfl rfl).symm k) = ix2 k p := by
  have hk := contrEquiv1_symm_val (colsDims K M N wf) K rfl rfl k
  funext a
  refine Fin.ext ?_
  match a with
  | ⟨0, _⟩ => exact ((colsDims K M N wf).lhsIdx_val_of_single rfl _ _).trans hk
  | ⟨1, _⟩ => exact lhsIdx_col wf _ _

/-- The right operand's index for output entry (p, n) and contraction index k is (k, n). -/
theorem rhsIdx_eq (p : Fin M) (n : Fin N) (k : Fin K) :
    (colsDims K M N wf).rhsIdx (ix2 p n) ((contrEquiv1 (colsDims K M N wf) K rfl rfl).symm k) = ix2 k n := by
  have hk := contrEquiv1_symm_val (colsDims K M N wf) K rfl rfl k
  funext a
  refine Fin.ext ?_
  match a with
  | ⟨0, _⟩ => exact ((colsDims K M N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32)
    (p : Fin M) (n : Fin N) :
    FloatOps.matmul (colsDims K M N wf) prec lhs rhs acc (ix2 p n)
      = acc (ix2 p n) + ∑ k : Fin K, lhs (ix2 k p) * rhs (ix2 k n) := by
  rw [Ideal.matmul_apply, ← Equiv.sum_comp (contrEquiv1 (colsDims K M N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![K, M]⟩ φ₁) (rhs : FVec Ideal ⟨2, ![K, N]⟩ φ₂) (p : Fin M) (n : Fin N) :
    FloatOps.matmul (colsDims K M N wf) prec lhs rhs (constant ⟨2, ![M, N]⟩ .f32 0x00000000#32) (ix2 p n)
      = ∑ k : Fin K, lhs (ix2 k p) * rhs (ix2 k n) := by
  rw [matmul_apply wf prec lhs rhs _ p n]
  show Ideal.ofBits .f32 0x00000000#32 + _ = _
  rw [Ideal.ofBits_zero_f32, zero_add]

end Cert.LibMatmulCols

end
-- ==== Proof.AttnPayload.lean ====
/-
  The arithmetic of one grid point of the attention pallas_call, read entry by entry on the extended reals.

  From a query block x0 [1, 256, 1024], the key block x1 and the value block x2 [1, 2048, 1024] of the batch, and the
  vision block x3 [1, 256, 1024]: the weights block is the softmax, row by row, of the scaled products of query rows
  with key rows; the first store is the weights times the values; the second adds, to what the output block held,
  the transposed weights times the vision block.
-/
import proofs.«179408_j30039001268913_2_alg».proof.Proof.Gen.KernelIdeal.Skeleton
import proofs.«179408_j30039001268913_2_alg».proof.Proof.Spec
import proofs.«179408_j30039001268913_2_alg».proof.Proof.LibSoftmaxRows
import proofs.«179408_j30039001268913_2_alg».proof.Proof.LibMatmulRows
import proofs.«179408_j30039001268913_2_alg».proof.Proof.LibMatmulPlain
import proofs.«179408_j30039001268913_2_alg».proof.Proof.LibMatmulCols
import Idealize.ShloMosaic.Lib.Pipeline.Value
import Idealize.ShloMosaic.Lib.ValueIdx
import Idealize.ShloMosaic.PureOps.Ideal.Laws

noncomputable section

open scoped BigOperators

namespace Cert.KernelIdeal.AttnPayload

open Cert.KernelIdeal Cert.KernelIdeal.Gen
open Idealize.ShloMosaic Idealize.ShloMosaic.ValueIdx
open Cert.Lib.SoftmaxRows (softmax)

variable (x0 : Vec Ideal S1x256x1024 .bf16) (x1 : Vec Ideal S1x2048x1024 .bf16) (x2 : Vec Ideal S1x2048x1024 .bf16)
  (x3 : Vec Ideal S1x256x1024 .bf16)

/-- Dropping the leading unit axis of a [1, a, b] block: entry (p, q) is the block's (0, p, q). -/
theorem dropUnit_apply {α : Type} {a b : Nat} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) := by
  refine shapeCast_apply v h (ix2 p q) (ix3 (0 : Fin 1) p q) ?_
  rw [Shape.rowMajor_val_three, Shape.rowMajor_val_two]
  show (0 * a + p.val) * b + q.val = p.val * b + q.val
  rw [Nat.zero_mul, Nat.zero_add]

/-- Adding a leading unit axis to an [a, b] array: entry (0, p, q) is the array's (p, q). -/
theorem addUnit_apply {α : Type} {a b : Nat} (v : (⟨2, ![a, b]⟩ : Shape).Idx → α)
    (h : (⟨2, ![a, b]⟩ : Shape).ShapeCasts ⟨3, ![1, a, b]⟩) (u : Fin 1) (p : Fin a) (q : Fin b) :
    shapeCast ⟨3, ![1, a, b]⟩ v h (ix3 u p q) = v (ix2 p q) := by
  refine shapeCast_apply v h (ix3 u p q) (ix2 p q) ?_
  rw [Shape.rowMajor_val_three, Shape.rowMajor_val_two]
  show p.val * b + q.val = (u.val * a + p.val) * b + q.val
  rw [show u.val = 0 from by have := u.isLt; omega, Nat.zero_mul, Nat.zero_add]

/-- The scaled score of query row r of the block against key row k. -/
def score (r : Fin 256) (k : Fin 2048) : EReal :=
  (∑ d : Fin 1024, x0 (ix3 (0 : Fin 1) r d) * x1 (ix3 (0 : Fin 1) k d)) * Cert.Spec.scale

/-- The weights block at (r, k): the softmax of row r of the scaled scores, at k. -/
theorem weights_apply (r : Fin 256) (k : Fin 2048) :
    k1_pay3 (F := Ideal) x0 x1 (ix2 r k) = softmax (fun k' : Fin 2048 => score x0 x1 r k') k := by
  unfold k1_pay3
  refine (Cert.Lib.SoftmaxRows.softmaxRows_apply (a := 256) (b := 2048) _ reduces_S256x2048_S256 (.inl rfl) rfl rfl
    shapeCasts_S256_S256x1 broadcasts_S256x1_S256x2048 r k).trans ?_
  refine congrArg (fun s => softmax s k) (funext fun k' => ?_)
  unfold score
  refine congrArg (· * Cert.Spec.scale) ?_
  refine (Cert.LibMatmulRows.matmul_zero_apply dot_S256x1024_S2048x1024_S256x2048_1_1_0_0_n_n_wf none _ _ r k').trans ?_
  refine Finset.sum_congr rfl fun d _ => ?_
  rw [dropUnit_apply, dropUnit_apply]

/-- The first store at (0, r, d): the sum over k of the weight (r, k) times the value (k, d). -/
theorem first_apply (u : Fin 1) (r : Fin 256) (d : Fin 1024) :
    k1_pay4 (F := Ideal) x0 x1 x2 (ix3 u r d)
      = ∑ k : Fin 2048, softmax (fun k' : Fin 2048 => score x0 x1 r k') k * x2 (ix3 (0 : Fin 1) k d) := by
  unfold k1_pay4
  refine (addUnit_apply _ shapeCasts_S256x1024_S1x256x1024 u r d).trans ?_
  refine (Cert.LibMatmulPlain.matmul_zero_apply dot_S256x2048_S2048x1024_S256x1024_1_0_0_1_n_n_wf none _ _ r d).trans ?_
  refine Finset.sum_congr rfl fun k _ => ?_
  rw [weights_apply, dropUnit_apply]

/-- The addend of the second store at (k, d): the sum over the block's rows r of the weight (r, k) times the vision
    entry (r, d). -/
theorem addend_apply (k : Fin 2048) (d : Fin 1024) :
    k1_pay5 (F := Ideal) x0 x1 x3 (ix2 k d)
      = ∑ r : Fin 256, softmax (fun k' : Fin 2048 => score x0 x1 r k') k * x3 (ix3 (0 : Fin 1) r d) := by
  unfold k1_pay5
  refine (Cert.LibMatmulCols.matmul_zero_apply dot_S256x2048_S256x1024_S2048x1024_0_0_1_1_n_n_wf none _ _ k d).trans ?_
  refine Finset.sum_congr rfl fun r _ => ?_
  rw [weights_apply, dropUnit_apply]

/-- The second store at (0, k, d): what the block held there, plus the addend. -/
theorem second_apply (w : FVec Ideal S2048x1024 .f32) (xo : Vec Ideal S1x2048x1024 .f32) (u : Fin 1) (k : Fin 2048) (d : Fin 1024) :
    k1_pay1 (F := Ideal) w xo (ix3 u k d) = xo (ix3 (0 : Fin 1) k d) + w (ix2 k d) := by
  unfold k1_pay1
  refine (addUnit_apply _ shapeCasts_S2048x1024_S1x2048x1024 u k d).trans ?_
  show shapeCast S2048x1024 xo shapeCasts_S1x2048x1024_S2048x1024 (ix2 k d) + w (ix2 k d) = _
  rw [dropUnit_apply]

/-- The zero block is zero everywhere. -/
theorem zero_apply (i : S1x2048x1024.Idx) : k1_pay2 (F := Ideal) i = 0 := by
  show Ideal.ofBits .f32 0x00000000#32 = 0
  exact Ideal.ofBits_zero_f32

end Cert.KernelIdeal.AttnPayload

end
-- ==== Proof.AttnPoint.lean ====
/-
  One grid point of the attention pallas_call against the specification. When the point's blocks are rows of the
  query, key, value and vision arrays of batch b — the query and vision blocks the rows 'row r', the key and value
  blocks all rows — the weights block is the specification's attention weights at those rows, the first store is the
  specification's first result there, and the second store's addend is the point's share of the second result's sum
  over the query rows.
-/
import proofs.«179408_j30039001268913_2_alg».proof.Proof.AttnPayload

noncomputable section

open scoped BigOperators

namespace Cert.KernelIdeal.AttnPoint

open Cert.KernelIdeal Cert.KernelIdeal.Gen Cert.KernelIdeal.AttnPayload
open Idealize.ShloMosaic Idealize.ShloMosaic.ValueIdx
open Cert.Lib.SoftmaxRows (softmax)

variable (Qh Kh Vh Uh : Cert.Spec.Half) (b : Fin 4) (row : Fin 256 → Fin 2048)
variable (x0 : Vec Ideal S1x256x1024 .bf16) (x1 : Vec Ideal S1x2048x1024 .bf16) (x2 : Vec Ideal S1x2048x1024 .bf16)
  (x3 : Vec Ideal S1x256x1024 .bf16)

/-- The block's weight (r, k) is the specification's attention weight of query row 'row r' on key row k. -/
theorem weight_eq (h0 : ∀ r d, x0 (ix3 (0 : Fin 1) r d) = Qh b (row r) d)
    (h1 : ∀ k d, x1 (ix3 (0 : Fin 1) k d) = Kh b k d) (r : Fin 256) (k : Fin 2048) :
    softmax (fun k' : Fin 2048 => score x0 x1 r k') k = Cert.Spec.attn Qh Kh b (row r) k := by
  unfold Cert.Spec.attn
  refine congrArg (fun s => softmax s k) (funext fun k' => ?_)
  unfold score Cert.Spec.scores
  refine congrArg (· * Cert.Spec.scale) (Finset.sum_congr rfl fun d _ => ?_)
  rw [h0, h1]

/-- The first store is the specification's first result at the block's rows. -/
theorem first_point (h0 : ∀ r d, x0 (ix3 (0 : Fin 1) r d) = Qh b (row r) d)
    (h1 : ∀ k d, x1 (ix3 (0 : Fin 1) k d) = Kh b k d) (h2 : ∀ k d, x2 (ix3 (0 : Fin 1) k d) = Vh b k d)
    (u : Fin 1) (r : Fin 256) (d : Fin 1024) :
    k1_pay4 (F := Ideal) x0 x1 x2 (ix3 u r d) = Cert.Spec.mixRows Qh Kh Vh b (row r) d := by
  rw [first_apply]
  unfold Cert.Spec.mixRows
  refine Finset.sum_congr rfl fun k _ => ?_
  rw [weight_eq Qh Kh b row x0 x1 h0 h1 r k, h2]

/-- The second store's addend at (k, d): the sum over the block's rows of the attention weight on key row k times
    the vision entry. -/
theorem addend_point (h0 : ∀ r d, x0 (ix3 (0 : Fin 1) r d) = Qh b (row r) d)
    (h1 : ∀ k d, x1 (ix3 (0 : Fin 1) k d) = Kh b k d) (h3 : ∀ r d, x3 (ix3 (0 : Fin 1) r d) = Uh b (row r) d)
    (k : Fin 2048) (d : Fin 1024) :
    k1_pay5 (F := Ideal) x0 x1 x3 (ix2 k d) = ∑ r : Fin 256, Cert.Spec.attn Qh Kh b (row r) k * Uh b (row r) d := by
  rw [addend_apply]
  refine Finset.sum_congr rfl fun r _ => ?_
  rw [weight_eq Qh Kh b row x0 x1 h0 h1 r k, h3]

/-- An array given by coordinates, read at an index whose coordinates are known. -/
theorem arr_at (G : Cert.Spec.Half) (i : (⟨3, ![4, 2048, 1024]⟩ : Shape).Idx) (b : Fin 4) (s : Fin 2048) (d : Fin 1024)
    (e0 : (i 0).val = b.val) (e1 : (i 1).val = s.val) (e2 : (i 2).val = d.val) : Cert.Spec.arr G i = G b s d := by
  have h0 : i 0 = b := Fin.ext e0
  have h1 : i 1 = s := Fin.ext e1
  have h2 : i 2 = d := Fin.ext e2
  show G (i 0) (i 1) (i 2) = G b s d
  rw [h0, h1, h2]

end Cert.KernelIdeal.AttnPoint

end
-- ==== Proof.LibSumBlocks.lean ====
/-
  Summing a function over `Fin (a * b)` block by block.

  The numbers below `a * b` are exactly the numbers `k * b + j` with `k < a` and `j < b`, each written in one way
  (`k` is the quotient by `b`, `j` the remainder). So a sum over all of them, in a commutative monoid, is the sum
  over the `a` blocks of `b` consecutive numbers of each block's own sum. Only commutativity and associativity of
  the addition are used: nothing is cancelled or distributed, so the statements hold in any additive commutative
  monoid, the extended reals included.
-/
import Mathlib.Algebra.BigOperators.Fin
import Mathlib.Data.Fintype.BigOperators
import Mathlib.Logic.Equiv.Fin.Basic

open scoped BigOperators

namespace Cert.LibSumBlocks

/-- The `j`-th number of the `k`-th block of `b` consecutive numbers lies below `a * b` when `k < a` and `j < b`. -/
theorem block_index_lt {a b : ℕ} (k : Fin a) (j : Fin b) : k.val * b + j.val < a * b :=
  calc k.val * b + j.val < k.val * b + b := Nat.add_lt_add_left j.isLt _
    _ = (k.val + 1) * b := (Nat.succ_mul _ _).symm
    _ ≤ a * b := Nat.mul_le_mul_right _ k.isLt

/-- A sum over `Fin (a * b)` is the sum, over the `a` blocks of `b` consecutive indices, of the sums over each
    block: `∑ i, f i = ∑ k < a, ∑ j < b, f (k * b + j)`, in any additive commutative monoid. -/
theorem sum_blocks {M : Type*} [AddCommMonoid M] (a b : ℕ) (f : Fin (a * b) → M) :
    ∑ i : Fin (a * b), f i = ∑ k : Fin a, ∑ j : Fin b, f ⟨k.val * b + j.val, block_index_lt k j⟩ := by
  rw [← Equiv.sum_comp finProdFinEquiv f, Fintype.sum_prod_type]
  refine Finset.sum_congr rfl fun k _ => Finset.sum_congr rfl fun j _ => congrArg f (Fin.ext ?_)
  show j.val + b * k.val = k.val * b + j.val
  rw [Nat.mul_comm, Nat.add_comm]

/-- The same with the blocks' sums listed in the other nesting: the sum, over the position `j` inside a block, of
    the sum over the blocks. -/
theorem sum_blocks_comm {M : Type*} [AddCommMonoid M] (a b : ℕ) (f : Fin (a * b) → M) :
    ∑ i : Fin (a * b), f i = ∑ j : Fin b, ∑ k : Fin a, f ⟨k.val * b + j.val, block_index_lt k j⟩ :=
  (sum_blocks a b f).trans Finset.sum_comm

/-- `4096 = 4 * 1024`: a sum over 4096 indices, accumulated from zero one block of 1024 at a time — the blocks
    starting at 0, 1024, 2048 and 3072 — is the whole sum. -/
theorem sum_four_blocks {M : Type*} [AddCommMonoid M] (f : Fin 4096 → M) :
    ((((0 + ∑ j : Fin 1024, f ⟨j.val, by have := j.isLt; omega⟩)
          + ∑ j : Fin 1024, f ⟨1024 + j.val, by have := j.isLt; omega⟩)
        + ∑ j : Fin 1024, f ⟨2048 + j.val, by have := j.isLt; omega⟩)
      + ∑ j : Fin 1024, f ⟨3072 + j.val, by have := j.isLt; omega⟩)
    = ∑ i : Fin 4096, f i := by
  rw [zero_add]
  refine Eq.symm ((sum_blocks 4 1024 f).trans ?_)
  rw [Fin.sum_univ_four]
  refine congrArg₂ (· + ·) (congrArg₂ (· + ·) (congrArg₂ (· + ·) ?_ ?_) ?_) ?_
  · exact Finset.sum_congr rfl fun j _ => congrArg f (Fin.ext (by show 0 * 1024 + j.val = j.val; omega))
  · exact Finset.sum_congr rfl fun j _ => congrArg f (Fin.ext (by show 1 * 1024 + j.val = 1024 + j.val; omega))
  · exact Finset.sum_congr rfl fun j _ => congrArg f (Fin.ext (by show 2 * 1024 + j.val = 2048 + j.val; omega))
  · exact Finset.sum_congr rfl fun j _ => congrArg f (Fin.ext (by show 3 * 1024 + j.val = 3072 + j.val; omega))

end Cert.LibSumBlocks
-- ==== Proof.AttnValue.lean ====
/-
  What the two result arrays of the attention pallas_call hold after it ran, when the four arrays it reads hold the
  queries Qh, the keys Kh, the values Vh and the vision half Uh.

  The grid has 32 points: point t handles batch t / 8 and query tile t % 8 (rows (t % 8)·256 … of the batch). The first
  result's block at a point is written back at every point: it is the attention weights of the tile's rows times the
  values. The second result's block is the whole [2048, 1024] slab of the batch, zeroed at the batch's first tile, added
  to at each of its eight tiles, and written back after the last: the sum over the eight tiles of the transposed
  weights times the vision rows of the tile, which is the sum over all 2048 query rows.
-/
import proofs.«179408_j30039001268913_2_alg».proof.Proof.Gen.KernelIdeal.Frame
import proofs.«179408_j30039001268913_2_alg».proof.Proof.AttnCases
import proofs.«179408_j30039001268913_2_alg».proof.Proof.AttnPoint
import proofs.«179408_j30039001268913_2_alg».proof.Proof.LibSumBlocks
import Idealize.ShloMosaic.Lib.Pipeline.Value

set_option maxRecDepth 16384

noncomputable section

open scoped BigOperators

namespace Cert.KernelIdeal.AttnValue

open Cert.KernelIdeal Cert.KernelIdeal.Gen Cert.KernelIdeal.AttnPayload Cert.KernelIdeal.AttnPoint
open Idealize.ShloMosaic Idealize.ShloMosaic.TcCoe Idealize.ShloMosaic.ValueIdx Idealize.SL.Sem
open Idealize.ShloMosaic.Pipeline (Dat)

/-- The batch of point n. -/
def bat (n : ℕ) : Fin 4 := ⟨n / 8 % 4, Nat.mod_lt _ (by decide)⟩
/-- Row r of point n's query tile, as a row of the batch. -/
def row (n : ℕ) (r : Fin 256) : Fin 2048 :=
  ⟨n % 8 * 256 + r.val, by have := r.isLt; have := Nat.mod_lt n (show 0 < 8 by decide); omega⟩

/-- The windows' block indices at point t, decided over the grid: the query, vision and first-result windows move with
    (batch, tile); the key, value and second-result windows with the batch alone. -/
theorem idx_facts : ∀ t : Fin cfg1.N,
    (win1_0.index t 0 = t.val / 8 ∧ win1_0.index t 1 = t.val % 8 ∧ win1_0.index t 2 = 0)
    ∧ (win1_1.index t 0 = t.val / 8 ∧ win1_1.index t 1 = 0 ∧ win1_1.index t 2 = 0)
    ∧ (win1_2.index t 0 = t.val / 8 ∧ win1_2.index t 1 = 0 ∧ win1_2.index t 2 = 0)
    ∧ (win1_3.index t 0 = t.val / 8 ∧ win1_3.index t 1 = t.val % 8 ∧ win1_3.index t 2 = 0)
    ∧ (win1_4.index t 0 = t.val / 8 ∧ win1_4.index t 1 = t.val % 8 ∧ win1_4.index t 2 = 0)
    ∧ (win1_5.index t 0 = t.val / 8 ∧ win1_5.index t 1 = 0 ∧ win1_5.index t 2 = 0) :=
  (by decide +kernel : ∀ t : Fin grid1.N, _)

theorem lt32 (t : Fin cfg1.N) : t.val < 32 := lt_of_lt_of_eq t.isLt (show cfg1.N = 32 from N_1)

variable (V : (c : Dev nD) → (b : Ref sig .tc) → Buf (Elt Ideal) ((c : Thread nD τ).loc b)) (c : Dev nD)
variable (Qh Kh Vh Uh : Cert.Spec.Half)

/-! ## The blocks the points read -/

/-- The query block at point t: the tile's rows of the queries. -/
theorem blk0 (hQ : (V c main_v9_0 : S4x2048x1024.Idx → EReal) = Cert.Spec.arr Qh) (t : Fin cfg1.N) (r : Fin 256) (d : Fin 1024) :
    (iblk1 V c 0 t : Vec Ideal S1x256x1024 .bf16) (ix3 (0 : Fin 1) r d) = Qh (bat t.val) (row t.val r) d := by
  obtain ⟨⟨e0, e1, e2⟩, -⟩ := idx_facts t
  have ht := lt32 t
  unfold iblk1
  rw [View.read_apply]
  show (V c main_v9_0 : S4x2048x1024.Idx → EReal) _ = _
  rw [hQ]
  refine arr_at Qh _ _ _ _ ?_ ?_ ?_
  · show win1_0.index t 0 * 1 + 1 * 0 = t.val / 8 % 4
    rw [e0]; omega
  · show win1_0.index t 1 * 256 + 1 * r.val = t.val % 8 * 256 + r.val
    rw [e1]; omega
  · show win1_0.index t 2 * 1024 + 1 * d.val = d.val
    rw [e2]; omega

/-- The key block at point t: all rows of the batch's keys. -/
theorem blk1 (hK : (V c main_v9_1 : S4x2048x1024.Idx → EReal) = Cert.Spec.arr Kh) (t : Fin cfg1.N) (k : Fin 2048) (d : Fin 1024) :
    (iblk1 V c 1 t : Vec Ideal S1x2048x1024 .bf16) (ix3 (0 : Fin 1) k d) = Kh (bat t.val) k d := by
  obtain ⟨-, ⟨e0, e1, e2⟩, -⟩ := idx_facts t
  have ht := lt32 t
  unfold iblk1
  rw [View.read_apply]
  show (V c main_v9_1 : S4x2048x1024.Idx → EReal) _ = _
  rw [hK]
  refine arr_at Kh _ _ _ _ ?_ ?_ ?_
  · show win1_1.index t 0 * 1 + 1 * 0 = t.val / 8 % 4
    rw [e0]; omega
  · show win1_1.index t 1 * 2048 + 1 * k.val = k.val
    rw [e1]; omega
  · show win1_1.index t 2 * 1024 + 1 * d.val = d.val
    rw [e2]; omega

/-- The value block at point t: all rows of the batch's values. -/
theorem blk2 (hV : (V c main_v9_2 : S4x2048x1024.Idx → EReal) = Cert.Spec.arr Vh) (t : Fin cfg1.N) (k : Fin 2048) (d : Fin 1024) :
    (iblk1 V c 2 t : Vec Ideal S1x2048x1024 .bf16) (ix3 (0 : Fin 1) k d) = Vh (bat t.val) k d := by
  obtain ⟨-, -, ⟨e0, e1, e2⟩, -⟩ := idx_facts t
  have ht := lt32 t
  unfold iblk1
  rw [View.read_apply]
  show (V c main_v9_2 : S4x2048x1024.Idx → EReal) _ = _
  rw [hV]
  refine arr_at Vh _ _ _ _ ?_ ?_ ?_
  · show win1_2.index t 0 * 1 + 1 * 0 = t.val / 8 % 4
    rw [e0]; omega
  · show win1_2.index t 1 * 2048 + 1 * k.val = k.val
    rw [e1]; omega
  · show win1_2.index t 2 * 1024 + 1 * d.val = d.val
    rw [e2]; omega

/-- The vision block at point t: the tile's rows of the vision half. -/
theorem blk3 (hU : (V c main_v9_3 : S4x2048x1024.Idx → EReal) = Cert.Spec.arr Uh) (t : Fin cfg1.N) (r : Fin 256) (d : Fin 1024) :
    (iblk1 V c 3 t : Vec Ideal S1x256x1024 .bf16) (ix3 (0 : Fin 1) r d) = Uh (bat t.val) (row t.val r) d := by
  obtain ⟨-, -, -, ⟨e0, e1, e2⟩, -⟩ := idx_facts t
  have ht := lt32 t
  unfold iblk1
  rw [View.read_apply]
  show (V c main_v9_3 : S4x2048x1024.Idx → EReal) _ = _
  rw [hU]
  refine arr_at Uh _ _ _ _ ?_ ?_ ?_
  · show win1_3.index t 0 * 1 + 1 * 0 = t.val / 8 % 4
    rw [e0]; omega
  · show win1_3.index t 1 * 256 + 1 * r.val = t.val % 8 * 256 + r.val
    rw [e1]; omega
  · show win1_3.index t 2 * 1024 + 1 * d.val = d.val
    rw [e2]; omega

/-! ## What the output blocks hold after each point -/

/-- The first output's block after point t, in either case: the weights times the values. -/
theorem first_eq (t : Fin cfg1.N) :
    (outsAt1 V c t.val t.isLt).1 = k1_pay4 (F := Ideal) (iblk1 V c 0 t) (iblk1 V c 1 t) (iblk1 V c 2 t) := by
  by_cases h0 : t.val % 8 = 0
  · have h := AttnCases.out_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)
    rw [outsAt1_A V c t h0]
    dsimp only
    exact h
  · have h := AttnCases.out_B_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t)
      (outsAt1 V c (t.val - 1) (Nat.lt_of_le_of_lt (Nat.sub_le _ _) t.isLt)).2
    rw [outsAt1_B V c t h0]
    dsimp only
    exact h

/-- Point n's share of the second result at (k, d): the sum over the tile's rows of the attention weight on key row k
    times the vision entry. -/
def part (n : ℕ) (k : Fin 2048) (d : Fin 1024) : EReal :=
  ∑ r : Fin 256, Cert.Spec.attn Qh Kh (bat n) (row n r) k * Uh (bat n) (row n r) d

/-- The second store's addend at point t is the point's share. -/
theorem addend_eq (hQ : (V c main_v9_0 : S4x2048x1024.Idx → EReal) = Cert.Spec.arr Qh)
    (hK : (V c main_v9_1 : S4x2048x1024.Idx → EReal) = Cert.Spec.arr Kh)
    (hU : (V c main_v9_3 : S4x2048x1024.Idx → EReal) = Cert.Spec.arr Uh) (t : Fin cfg1.N) (k : Fin 2048) (d : Fin 1024) :
    k1_pay5 (F := Ideal) (iblk1 V c 0 t) (iblk1 V c 1 t) (iblk1 V c 3 t) (ix2 k d) = part Qh Kh Uh t.val k d :=
  addend_point Qh Kh Uh (bat t.val) (row t.val) _ _ _ (blk0 V c Qh hQ t) (blk1 V c Kh hK t) (blk3 V c Uh hU t) k d

/-- The second output's block after point n: the shares of the batch's tiles up to n, summed. -/
theorem second_eq (hQ : (V c main_v9_0 : S4x2048x1024.Idx → EReal) = Cert.Spec.arr Qh)
    (hK : (V c main_v9_1 : S4x2048x1024.Idx → EReal) = Cert.Spec.arr Kh)
    (hU : (V c main_v9_3 : S4x2048x1024.Idx → EReal) = Cert.Spec.arr Uh) :
    ∀ (n : ℕ) (h : n < cfg1.N) (u : Fin 1) (k : Fin 2048) (d : Fin 1024),
      (outsAt1 V c n h).2 (ix3 u k d) = ∑ s ∈ Finset.range (n % 8 + 1), part Qh Kh Uh (n - n % 8 + s) k d
  | n, h, u, k, d => by
    by_cases h0 : n % 8 = 0
    · have hcase := AttnCases.out_A_5 (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) ((hcond1_0 ⟨n, h⟩).mpr h0) (iblk1 V c 0 ⟨n, h⟩) (iblk1 V c 1 ⟨n, h⟩) (iblk1 V c 2 ⟨n, h⟩) (iblk1 V c 3 ⟨n, h⟩)
      rw [outsAt1_A V c ⟨n, h⟩ h0]
      dsimp only
      rw [hcase, second_apply, zero_apply, zero_add, addend_eq V c Qh Kh Uh hQ hK hU ⟨n, h⟩ k d, h0, Finset.sum_range_one]
      show part Qh Kh Uh n k d = part Qh Kh Uh (n - 0 + 0) k d
      rfl
    · have hn : n - 1 < cfg1.N := Nat.lt_of_le_of_lt (Nat.sub_le _ _) h
      have hcase := AttnCases.out_B_5 (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (fun hh => h0 ((hcond1_0 ⟨n, h⟩).mp hh)) (iblk1 V c 0 ⟨n, h⟩) (iblk1 V c 1 ⟨n, h⟩) (iblk1 V c 2 ⟨n, h⟩) (iblk1 V c 3 ⟨n, h⟩)
        (outsAt1 V c (n - 1) hn).2
      rw [outsAt1_B V c ⟨n, h⟩ h0]
      dsimp only
      rw [hcase, second_apply, addend_eq V c Qh Kh Uh hQ hK hU ⟨n, h⟩ k d]
      show (outsAt1 V c (n - 1) hn).2 (ix3 (0 : Fin 1) k d) + part Qh Kh Uh n k d = _
      rw [second_eq hQ hK hU (n - 1) hn (0 : Fin 1) k d]
      have e1 : (n - 1) % 8 + 1 = n % 8 := by omega
      have e2 : n - 1 - (n - 1) % 8 = n - n % 8 := by omega
      have e3 : n = n - n % 8 + n % 8 := by omega
      rw [e1, e2, Finset.sum_range_succ]
      exact congrArg (_ + part Qh Kh Uh · k d) e3
  termination_by n => n
  decreasing_by omega

/-! ## The shares of a batch's eight tiles sum to the second result -/

/-- The eight tiles' shares are the sum over all 2048 query rows, block by block of 256. -/
theorem parts_sum (bb : ℕ) (hbb : bb < 4) (k : Fin 2048) (d : Fin 1024) :
    ∑ s ∈ Finset.range 8, part Qh Kh Uh (8 * bb + s) k d = Cert.Spec.mixCols Qh Kh Uh ⟨bb, hbb⟩ k d := by
  have hs := Cert.LibSumBlocks.sum_blocks (M := EReal) 8 256
    (fun q : Fin 2048 => Cert.Spec.attn Qh Kh ⟨bb, hbb⟩ q k * Uh ⟨bb, hbb⟩ q d)
  rw [Finset.sum_range]
  unfold Cert.Spec.mixCols
  refine Eq.trans ?_ hs.symm
  refine Finset.sum_congr rfl fun s _ => ?_
  unfold part
  refine Finset.sum_congr rfl fun r _ => ?_
  have hb : bat (8 * bb + s.val) = ⟨bb, hbb⟩ := Fin.ext (by show (8 * bb + s.val) / 8 % 4 = bb; have := s.isLt; omega)
  have hr : row (8 * bb + s.val) r = ⟨s.val * 256 + r.val, Cert.LibSumBlocks.block_index_lt s r⟩ :=
    Fin.ext (by show (8 * bb + s.val) % 8 * 256 + r.val = s.val * 256 + r.val; have := s.isLt; omega)
  rw [hb, hr]

/-! ## What the points write back -/

/-- A [1, 256, 1024] block given at coordinates, against an array given by coordinates. -/
theorem tile_read (f : S1x256x1024.Idx → EReal) (G : Cert.Spec.Half) (bb : Fin 4) (rowf : Fin 256 → Fin 2048)
    (hpt : ∀ (u : Fin 1) (r : Fin 256) (d : Fin 1024), f (ix3 u r d) = G bb (rowf r) d)
    (y : S1x256x1024.Idx) (i : S4x2048x1024.Idx)
    (e0 : (i 0).val = bb.val) (e1 : (i 1).val = (rowf (y 1)).val) (e2 : (i 2).val = (y 2).val) :
    f y = Cert.Spec.arr G i := by
  exact ((congrArg f (eq_ix3 y)).trans (hpt (y 0) (y 1) (y 2))).trans (arr_at G i bb (rowf (y 1)) (y 2) e0 e1 e2).symm

/-- A [1, 2048, 1024] block given at coordinates, against an array given by coordinates. -/
theorem slab_read (f : S1x2048x1024.Idx → EReal) (G : Cert.Spec.Half) (bb : Fin 4)
    (hpt : ∀ (u : Fin 1) (k : Fin 2048) (d : Fin 1024), f (ix3 u k d) = G bb k d)
    (y : S1x2048x1024.Idx) (i : S4x2048x1024.Idx)
    (e0 : (i 0).val = bb.val) (e1 : (i 1).val = (y 1).val) (e2 : (i 2).val = (y 2).val) :
    f y = Cert.Spec.arr G i := by
  exact ((congrArg f (eq_ix3 y)).trans (hpt (y 0) (y 1) (y 2))).trans (arr_at G i bb (y 1) (y 2) e0 e1 e2).symm

/-- What point t writes back of the first result is its block of the weights-times-values array. -/
theorem flushed4_eq (hQ : (V c main_v9_0 : S4x2048x1024.Idx → EReal) = Cert.Spec.arr Qh)
    (hK : (V c main_v9_1 : S4x2048x1024.Idx → EReal) = Cert.Spec.arr Kh)
    (hV : (V c main_v9_2 : S4x2048x1024.Idx → EReal) = Cert.Spec.arr Vh) (t : Fin cfg1.N) :
    (dat1 V c).flushed 4 t
      = ((cfg1.win 4).blk t).view.read (Elt Ideal) (Cert.Spec.arr (Cert.Spec.mixRows Qh Kh Vh)) := by
  obtain ⟨-, -, -, -, ⟨e0, e1, e2⟩, -⟩ := idx_facts t
  have ht := lt32 t
  show (cfg1.win 4).cut (grid1.coords t) ((dat1 V c).after 4 t) = _
  rw [after1_4, first_eq]
  funext y
  rw [View.read_apply]
  refine tile_read (k1_pay4 (F := Ideal) (iblk1 V c 0 t) (iblk1 V c 1 t) (iblk1 V c 2 t)) (Cert.Spec.mixRows Qh Kh Vh) (bat t.val) (row t.val)
    (first_point Qh Kh Vh (bat t.val) (row t.val) _ _ _ (blk0 V c Qh hQ t) (blk1 V c Kh hK t) (blk2 V c Vh hV t)) y _ ?_ ?_ ?_
  · show win1_4.index t 0 * 1 + 1 * (y 0).val = t.val / 8 % 4
    have : (y 0).val < 1 := (y 0).isLt
    rw [e0]; omega
  · show win1_4.index t 1 * 256 + 1 * (y 1).val = t.val % 8 * 256 + (y 1).val
    rw [e1]; omega
  · show win1_4.index t 2 * 1024 + 1 * (y 2).val = (y 2).val
    rw [e2]; omega

/-- What a batch's last point writes back of the second result is its slab of the transposed-weights-times-vision array. -/
theorem flushed5_eq (hQ : (V c main_v9_0 : S4x2048x1024.Idx → EReal) = Cert.Spec.arr Qh)
    (hK : (V c main_v9_1 : S4x2048x1024.Idx → EReal) = Cert.Spec.arr Kh)
    (hU : (V c main_v9_3 : S4x2048x1024.Idx → EReal) = Cert.Spec.arr Uh) (t : Fin cfg1.N)
    (hf : (cfg1.win 5).flush t = true) :
    (dat1 V c).flushed 5 t
      = ((cfg1.win 5).blk t).view.read (Elt Ideal) (Cert.Spec.arr (Cert.Spec.mixCols Qh Kh Uh)) := by
  obtain ⟨-, -, -, -, -, ⟨e0, e1, e2⟩⟩ := idx_facts t
  have ht := lt32 t
  have h7 : t.val % 8 = 7 := (flush1_5 t).mp hf
  show (cfg1.win 5).cut (grid1.coords t) ((dat1 V c).after 5 t) = _
  rw [after1_5]
  funext y
  rw [View.read_apply]
  refine slab_read (outsAt1 V c t.val t.isLt).2 (Cert.Spec.mixCols Qh Kh Uh) (bat t.val) (fun u k d => ?_) y _ ?_ ?_ ?_
  · rw [second_eq V c Qh Kh Uh hQ hK hU t.val t.isLt u k d, h7]
    have hb : t.val - 7 = 8 * (t.val / 8) := by omega
    have hlt : t.val / 8 < 4 := by omega
    rw [hb, parts_sum Qh Kh Uh (t.val / 8) hlt k d]
    exact congrArg (Cert.Spec.mixCols Qh Kh Uh · k d) (Fin.ext (by show t.val / 8 = t.val / 8 % 4; omega))
  · show win1_5.index t 0 * 1 + 1 * (y 0).val = t.val / 8 % 4
    have : (y 0).val < 1 := (y 0).isLt
    rw [e0]; omega
  · show win1_5.index t 1 * 2048 + 1 * (y 1).val = (y 1).val
    rw [e1]; omega
  · show win1_5.index t 2 * 1024 + 1 * (y 2).val = (y 2).val
    rw [e2]; omega

/-! ## The write-backs cover the result arrays -/

/-- Row s of batch b of the first result is in the block of point 8 b + s / 256. -/
theorem cover4 (i : S4x2048x1024.Idx) :
    ∃ t : Fin cfg1.N, (cfg1.win 4).flush t = true ∧ i ∈ ((cfg1.win 4).blk t).view.set := by
  have h0 : (i 0).val < 4 := (i 0).isLt
  have h1 : (i 1).val < 2048 := (i 1).isLt
  have h2 : (i 2).val < 1024 := (i 2).isLt
  have hN : cfg1.N = 32 := N_1
  let t : Fin cfg1.N := ⟨(i 0).val * 8 + (i 1).val / 256, lt_of_lt_of_eq (by omega : _ < 32) hN.symm⟩
  have htv : t.val = (i 0).val * 8 + (i 1).val / 256 := rfl
  obtain ⟨-, -, -, -, ⟨e0, e1, e2⟩, -⟩ := idx_facts t
  refine ⟨t, flush1_4 t, ?_⟩
  show i ∈ ((View.whole main_v10_0).slice (win1_4.rect t)).set
  rw [View.set_slice_whole, Rect.mem_set_unit]
  intro a
  match a with
  | ⟨0, _⟩ =>
    show win1_4.index t 0 * 1 ≤ (i 0).val ∧ (i 0).val < win1_4.index t 0 * 1 + 1
    rw [e0, htv]; omega
  | ⟨1, _⟩ =>
    show win1_4.index t 1 * 256 ≤ (i 1).val ∧ (i 1).val < win1_4.index t 1 * 256 + 256
    rw [e1, htv]; omega
  | ⟨2, _⟩ =>
    show win1_4.index t 2 * 1024 ≤ (i 2).val ∧ (i 2).val < win1_4.index t 2 * 1024 + 1024
    rw [e2]; omega

/-- Batch b of the second result is the slab written back at the batch's last point, 8 b + 7. -/
theorem cover5 (i : S4x2048x1024.Idx) :
    ∃ t : Fin cfg1.N, (cfg1.win 5).flush t = true ∧ i ∈ ((cfg1.win 5).blk t).view.set := by
  have h0 : (i 0).val < 4 := (i 0).isLt
  have h1 : (i 1).val < 2048 := (i 1).isLt
  have h2 : (i 2).val < 1024 := (i 2).isLt
  have hN : cfg1.N = 32 := N_1
  let t : Fin cfg1.N := ⟨(i 0).val * 8 + 7, lt_of_lt_of_eq (by omega : _ < 32) hN.symm⟩
  have htv : t.val = (i 0).val * 8 + 7 := rfl
  obtain ⟨-, -, -, -, -, ⟨e0, e1, e2⟩⟩ := idx_facts t
  refine ⟨t, (flush1_5 t).mpr (by rw [htv]; omega), ?_⟩
  show i ∈ ((View.whole main_v10_1).slice (win1_5.rect t)).set
  rw [View.set_slice_whole, Rect.mem_set_unit]
  intro a
  match a with
  | ⟨0, _⟩ =>
    show win1_5.index t 0 * 1 ≤ (i 0).val ∧ (i 0).val < win1_5.index t 0 * 1 + 1
    rw [e0, htv]; omega
  | ⟨1, _⟩ =>
    show win1_5.index t 1 * 2048 ≤ (i 1).val ∧ (i 1).val < win1_5.index t 1 * 2048 + 2048
    rw [e1]; omega
  | ⟨2, _⟩ =>
    show win1_5.index t 2 * 1024 ≤ (i 2).val ∧ (i 2).val < win1_5.index t 2 * 1024 + 1024
    rw [e2]; omega

/-! ## The result arrays -/

/-- The first result array ends holding the attention weights times the values. -/
theorem final4 (hQ : (V c main_v9_0 : S4x2048x1024.Idx → EReal) = Cert.Spec.arr Qh)
    (hK : (V c main_v9_1 : S4x2048x1024.Idx → EReal) = Cert.Spec.arr Kh)
    (hV : (V c main_v9_2 : S4x2048x1024.Idx → EReal) = Cert.Spec.arr Vh) :
    (dat1 V c).arrAt 4 cfg1.N = Cert.Spec.arr (Cert.Spec.mixRows Qh Kh Vh) :=
  (dat1 V c).arrAt_eq_of_cover 4 (Cert.Spec.arr (Cert.Spec.mixRows Qh Kh Vh))
    (fun t _ => flushed4_eq V c Qh Kh Vh hQ hK hV t) cover4

/-- The second result array ends holding the transposed attention weights times the vision half. -/
theorem final5 (hQ : (V c main_v9_0 : S4x2048x1024.Idx → EReal) = Cert.Spec.arr Qh)
    (hK : (V c main_v9_1 : S4x2048x1024.Idx → EReal) = Cert.Spec.arr Kh)
    (hU : (V c main_v9_3 : S4x2048x1024.Idx → EReal) = Cert.Spec.arr Uh) :
    (dat1 V c).arrAt 5 cfg1.N = Cert.Spec.arr (Cert.Spec.mixCols Qh Kh Uh) :=
  (dat1 V c).arrAt_eq_of_cover 5 (Cert.Spec.arr (Cert.Spec.mixCols Qh Kh Uh))
    (fun t hf => flushed5_eq V c Qh Kh Uh hQ hK hU t hf) cover5

end Cert.KernelIdeal.AttnValue

end
-- ==== Proof.Scale.lean ====
/-
  The two float constants of the score scaling, as the reals they denote, and the one identity between the two
  spellings of the scaling: dividing by the square root of 1024 is multiplying by 1/32, on every extended real.
-/
import Idealize.ShloMosaic.PureOps.Ideal

noncomputable section

namespace Cert.Scale

open Idealize.ShloMosaic

/-- The word 0x44800000 denotes the real 1024. -/
theorem ofBits_1024 : Ideal.ofBits .f32 0x44800000#32 = ((1024 : ℝ) : EReal) := by
  simp [Ideal.ofBits, Ideal.ieee, -EReal.coe_mul]; norm_num

/-- The word 0x3D000000 denotes the real 1/32. -/
theorem ofBits_inv32 : Ideal.ofBits .f32 0x3D000000#32 = ((1 / 32 : ℝ) : EReal) := by
  simp [Ideal.ofBits, Ideal.ieee, -EReal.coe_mul]; norm_num

/-- The square root of 1024 is 32. -/
theorem sqrt_1024 : Ideal.sqrt ((1024 : ℝ) : EReal) = ((32 : ℝ) : EReal) := by
  rw [Ideal.sqrt_coe, if_neg (by norm_num)]
  congr 1
  rw [show (1024 : ℝ) = 32 ^ 2 by norm_num, Real.sqrt_sq (by norm_num)]

/-- Dividing by the square root of the word for 1024 is multiplying by the word for 1/32. -/
theorem div_sqrt_eq_mul (x : EReal) :
    Ideal.div x (Ideal.sqrt (Ideal.ofBits .f32 0x44800000#32)) = x * Ideal.ofBits .f32 0x3D000000#32 := by
  rw [ofBits_1024, sqrt_1024, ofBits_inv32, Ideal.div_coe (by norm_num : (32 : ℝ) ≠ 0)]

end Cert.Scale

end
-- ==== Proof.RefValue.lean ====
/-
  The reference program's two results are the specification's, on the extended reals.

  The reference is read one operation at a time, each at an index given by its coordinates: the two halves of the
  input, the three linear layers, the scaled scores, the row maxima from minus infinity, the exponentials of the
  scores less their row's maximum, the rows' sums, the quotients, and at last the two contractions of the attention
  weights, with the values along the key positions and with the left half along the query positions.
-/
import Idealize.ShloMosaic.PureOps.Ideal.Laws
import Idealize.ShloMosaic.PureOps.Reduce
import Idealize.ShloMosaic.Lib.ValueIdx
import proofs.«179408_j30039001268913_2_alg».proof.Proof.Spec
import proofs.«179408_j30039001268913_2_alg».proof.Proof.Scale
import proofs.«179408_j30039001268913_2_alg».proof.Proof.LibSoftmaxRows
import proofs.«179408_j30039001268913_2_alg».proof.Proof.Gen.ReferenceIdeal.Read

noncomputable section

open scoped BigOperators

namespace Cert.RefValue

open Idealize.ShloMosaic Idealize.ShloMosaic.ValueIdx Cert.ReferenceIdeal Cert.ReferenceIdeal.Gen Cert.ReferenceIdeal.Read Cert.Spec
  Cert.Lib.SoftmaxRows

variable (x0 : Inp) (x1 : Mat) (x2 : Bias) (x3 : Mat) (x4 : Bias) (x5 : Mat) (x6 : Bias)

/-- The first slice is the left half of the input. -/
theorem v0_apply (b : Fin 4) (s : Fin 2048) (d : Fin 1024) :
    val_main_v0 (F := Ideal) x0 (ix3 b s d) = vis x0 b s d := by
  rw [val_main_v0_apply]
  exact congrArg x0 (funext fun a => Fin.ext (by match a with | ⟨0, _⟩ => rfl | ⟨1, _⟩ => rfl | ⟨2, _⟩ => rfl))

/-- The second slice is the right half of the input. -/
theorem v1_apply (b : Fin 4) (s : Fin 2048) (d : Fin 1024) :
    val_main_v1 (F := Ideal) x0 (ix3 b s d) = txt x0 b s d := by
  rw [val_main_v1_apply]
  exact congrArg x0 (funext fun a => Fin.ext (by match a with | ⟨0, _⟩ => rfl | ⟨1, _⟩ => rfl | ⟨2, _⟩ => rfl))

/-- The queries: the linear layer of the left half. -/
theorem v5_apply (b : Fin 4) (s : Fin 2048) (e : Fin 1024) :
    val_main_v5 (F := Ideal) x0 x1 x2 (ix3 b s e) = qry x0 x1 x2 b s e := by
  rw [val_main_v5_apply, val_main_v2_apply, val_main_v4_apply, val_main_v3_apply]
  unfold qry lin
  refine congrArg₂ (· + ·) (Finset.sum_congr rfl fun d _ => congrArg₂ (· * ·) ?_ ?_) ?_
  · exact (congrArg (val_main_v0 (F := Ideal) x0)
      (funext fun a => Fin.ext (by match a with | ⟨0, _⟩ => rfl | ⟨1, _⟩ => rfl | ⟨2, _⟩ => rfl))).trans
      (v0_apply x0 b s d)
  · exact congrArg x1 (funext fun a => Fin.ext (by match a with | ⟨0, _⟩ => rfl | ⟨1, _⟩ => rfl))
  · exact congrArg x2 (funext fun a => Fin.ext (by match a with | ⟨0, _⟩ => rfl))

/-- The keys: the linear layer of the right half. -/
theorem v9_apply (b : Fin 4) (s : Fin 2048) (e : Fin 1024) :
    val_main_v9 (F := Ideal) x0 x3 x4 (ix3 b s e) = key x0 x3 x4 b s e := by
  rw [val_main_v9_apply, val_main_v6_apply, val_main_v8_apply, val_main_v7_apply]
  unfold key lin
  refine congrArg₂ (· + ·) (Finset.sum_congr rfl fun d _ => congrArg₂ (· * ·) ?_ ?_) ?_
  · exact (congrArg (val_main_v1 (F := Ideal) x0)
      (funext fun a => Fin.ext (by match a with | ⟨0, _⟩ => rfl | ⟨1, _⟩ => rfl | ⟨2, _⟩ => rfl))).trans
      (v1_apply x0 b s d)
  · exact congrArg x3 (funext fun a => Fin.ext (by match a with | ⟨0, _⟩ => rfl | ⟨1, _⟩ => rfl))
  · exact congrArg x4 (funext fun a => Fin.ext (by match a with | ⟨0, _⟩ => rfl))

/-- The values: the other linear layer of the right half. -/
theorem v13_apply (b : Fin 4) (s : Fin 2048) (e : Fin 1024) :
    val_main_v13 (F := Ideal) x0 x5 x6 (ix3 b s e) = vals x0 x5 x6 b s e := by
  rw [val_main_v13_apply, val_main_v10_apply, val_main_v12_apply, val_main_v11_apply]
  unfold vals lin
  refine congrArg₂ (· + ·) (Finset.sum_congr rfl fun d _ => congrArg₂ (· * ·) ?_ ?_) ?_
  · exact (congrArg (val_main_v1 (F := Ideal) x0)
      (funext fun a => Fin.ext (by match a with | ⟨0, _⟩ => rfl | ⟨1, _⟩ => rfl | ⟨2, _⟩ => rfl))).trans
      (v1_apply x0 b s d)
  · exact congrArg x5 (funext fun a => Fin.ext (by match a with | ⟨0, _⟩ => rfl | ⟨1, _⟩ => rfl))
  · exact congrArg x6 (funext fun a => Fin.ext (by match a with | ⟨0, _⟩ => rfl))

/-- The scores: the products of query rows with key rows, divided by the square root of 1024, which is
    multiplying by 1/32. -/
theorem v17_apply (b : Fin 4) (q k : Fin 2048) :
    val_main_v17 (F := Ideal) x0 x1 x2 x3 x4 (ix3 b q k) = scores (qry x0 x1 x2) (key x0 x3 x4) b q k := by
  rw [val_main_v17_apply, val_main_v14_apply, val_main_v16_apply, val_main_v15_apply, val_main_cst_apply,
    Ideal.hostDivf_def, Ideal.hostUnary_sqrt_def]
  refine (Cert.Scale.div_sqrt_eq_mul _).trans ?_
  unfold scores
  refine congrArg (· * scale) (Finset.sum_congr rfl fun d _ => congrArg₂ (· * ·) ?_ ?_)
  · exact (congrArg (val_main_v5 (F := Ideal) x0 x1 x2)
      (funext fun a => Fin.ext (by match a with | ⟨0, _⟩ => rfl | ⟨1, _⟩ => rfl | ⟨2, _⟩ => rfl))).trans
      (v5_apply x0 x1 x2 b q d)
  · exact (congrArg (val_main_v9 (F := Ideal) x0 x3 x4)
      (funext fun a => Fin.ext (by match a with | ⟨0, _⟩ => rfl | ⟨1, _⟩ => rfl | ⟨2, _⟩ => rfl))).trans
      (v9_apply x0 x3 x4 b k d)

/-- The row maxima: the fold of the maximum over the key positions, from minus infinity. -/
theorem v18_apply (b : Fin 4) (q : Fin 2048) :
    val_main_v18 (F := Ideal) x0 x1 x2 x3 x4 (ix2 b q)
      = rowMax (fun k : Fin 2048 => scores (qry x0 x1 x2) (key x0 x3 x4) b q k) := by
  unfold val_main_v18
  rw [Host.reduce_eq_fold_single FloatOps.maximumf _ _ reducesTo_S4x2048x2048_S4x2048_d2 (by decide) h_S_]
  unfold rowMax
  exact Finset.fold_congr fun k _ =>
    (congrArg (val_main_v17 (F := Ideal) x0 x1 x2 x3 x4)
      (funext fun a => Fin.ext (by match a with | ⟨0, _⟩ => rfl | ⟨1, _⟩ => rfl | ⟨2, _⟩ => rfl))).trans
      (v17_apply x0 x1 x2 x3 x4 b q k)

/-- One more maximum with minus infinity leaves the row maxima as they are. -/
theorem v20_apply (b : Fin 4) (q : Fin 2048) :
    val_main_v20 (F := Ideal) x0 x1 x2 x3 x4 (ix2 b q)
      = rowMax (fun k : Fin 2048 => scores (qry x0 x1 x2) (key x0 x3 x4) b q k) := by
  rw [val_main_v20_apply, val_main_v19_apply, val_main_cst_1_apply, v18_apply, Ideal.maximumf_def]
  exact max_negInf_rowMax _

/-- The exponentials of the scores less their row's maximum. -/
theorem v24_apply (b : Fin 4) (q k : Fin 2048) :
    val_main_v24 (F := Ideal) x0 x1 x2 x3 x4 (ix3 b q k)
      = Ideal.exp (scores (qry x0 x1 x2) (key x0 x3 x4) b q k
          - rowMax (fun k' : Fin 2048 => scores (qry x0 x1 x2) (key x0 x3 x4) b q k')) := by
  rw [val_main_v24_apply, val_main_v23_apply, val_main_v22_apply, val_main_v21_apply, Ideal.hostUnary_exp_def,
    Ideal.subf_def, v17_apply]
  have e : idx_main_v21 (idx_main_v22 (ix3 b q k)) = ix2 b q :=
    funext fun a => Fin.ext (by match a with | ⟨0, _⟩ => rfl | ⟨1, _⟩ => rfl)
  rw [e, v20_apply]

/-- The rows' sums of exponentials; the sum starts from zero. -/
theorem v25_apply (b : Fin 4) (q : Fin 2048) :
    val_main_v25 (F := Ideal) x0 x1 x2 x3 x4 (ix2 b q)
      = ∑ k : Fin 2048, Ideal.exp (scores (qry x0 x1 x2) (key x0 x3 x4) b q k
          - rowMax (fun k' : Fin 2048 => scores (qry x0 x1 x2) (key x0 x3 x4) b q k')) := by
  rw [val_main_v25_apply, val_main_cst_2_apply]
  refine (congrArg (· + _) Ideal.ofBits_zero_f32).trans ((zero_add _).trans ?_)
  exact Finset.sum_congr rfl fun k _ =>
    (congrArg (val_main_v24 (F := Ideal) x0 x1 x2 x3 x4)
      (funext fun a => Fin.ext (by match a with | ⟨0, _⟩ => rfl | ⟨1, _⟩ => rfl | ⟨2, _⟩ => rfl))).trans
      (v24_apply x0 x1 x2 x3 x4 b q k)

/-- The attention weights: each exponential over its row's sum. -/
theorem v28_apply (b : Fin 4) (q k : Fin 2048) :
    val_main_v28 (F := Ideal) x0 x1 x2 x3 x4 (ix3 b q k) = attn (qry x0 x1 x2) (key x0 x3 x4) b q k := by
  rw [val_main_v28_apply, val_main_v27_apply, val_main_v26_apply, Ideal.hostDivf_def, v24_apply]
  unfold attn softmax
  refine congrArg (Ideal.div _) ?_
  exact (congrArg (val_main_v25 (F := Ideal) x0 x1 x2 x3 x4)
    (funext fun a => Fin.ext (by match a with | ⟨0, _⟩ => rfl | ⟨1, _⟩ => rfl))).trans
    (v25_apply x0 x1 x2 x3 x4 b q)

/-- The first result of the reference is the specification's: the attention weights times the values. -/
theorem ref_outVis (x0 : Cert.Spec.Inp) (x1 : Cert.Spec.Mat) (x2 : Cert.Spec.Bias) (x3 : Cert.Spec.Mat)
    (x4 : Cert.Spec.Bias) (x5 : Cert.Spec.Mat) (x6 : Cert.Spec.Bias) :
    Cert.ReferenceIdeal.Read.val_main_v29 (F := Ideal) x0 x1 x2 x3 x4 x5 x6
      = Cert.Spec.outVis x0 x1 x2 x3 x4 x5 x6 := by
  funext i
  obtain ⟨b, q, d, rfl⟩ : ∃ (b : Fin 4) (q : Fin 2048) (d : Fin 1024), i = ix3 b q d := ⟨_, _, _, eq_ix3 i⟩
  rw [val_main_v29_apply]
  unfold outVis
  rw [arr_apply]
  unfold mixRows
  refine Finset.sum_congr rfl fun k _ => congrArg₂ (· * ·) ?_ ?_
  · exact (congrArg (val_main_v28 (F := Ideal) x0 x1 x2 x3 x4)
      (funext fun a => Fin.ext (by match a with | ⟨0, _⟩ => rfl | ⟨1, _⟩ => rfl | ⟨2, _⟩ => rfl))).trans
      (v28_apply x0 x1 x2 x3 x4 b q k)
  · exact (congrArg (val_main_v13 (F := Ideal) x0 x5 x6)
      (funext fun a => Fin.ext (by match a with | ⟨0, _⟩ => rfl | ⟨1, _⟩ => rfl | ⟨2, _⟩ => rfl))).trans
      (v13_apply x0 x5 x6 b k d)

/-- The second result of the reference is the specification's: the transposed attention weights times the left
    half. -/
theorem ref_outTxt (x0 : Cert.Spec.Inp) (x1 : Cert.Spec.Mat) (x2 : Cert.Spec.Bias) (x3 : Cert.Spec.Mat)
    (x4 : Cert.Spec.Bias) :
    Cert.ReferenceIdeal.Read.val_main_v30 (F := Ideal) x0 x1 x2 x3 x4 = Cert.Spec.outTxt x0 x1 x2 x3 x4 := by
  funext i
  obtain ⟨b, k, d, rfl⟩ : ∃ (b : Fin 4) (k : Fin 2048) (d : Fin 1024), i = ix3 b k d := ⟨_, _, _, eq_ix3 i⟩
  rw [val_main_v30_apply]
  unfold outTxt
  rw [arr_apply]
  unfold mixCols
  refine Finset.sum_congr rfl fun q _ => congrArg₂ (· * ·) ?_ ?_
  · exact (congrArg (val_main_v28 (F := Ideal) x0 x1 x2 x3 x4)
      (funext fun a => Fin.ext (by match a with | ⟨0, _⟩ => rfl | ⟨1, _⟩ => rfl | ⟨2, _⟩ => rfl))).trans
      (v28_apply x0 x1 x2 x3 x4 b q k)
  · exact (congrArg (val_main_v0 (F := Ideal) x0)
      (funext fun a => Fin.ext (by match a with | ⟨0, _⟩ => rfl | ⟨1, _⟩ => rfl | ⟨2, _⟩ => rfl))).trans
      (v0_apply x0 b q d)

end Cert.RefValue

end
-- ==== Proof.lean ====
/-
  The certificate of a cross-attention kernel against its reference, on the extended reals.

  Both programs compute, from an input whose last axis holds a vision half and a text half: the queries of the
  vision half and the keys and values of the text half (three linear layers); the scores, products of queries with
  keys scaled by 1/32 — the kernel multiplies by the constant 1/32, the reference divides by the square root of 1024,
  which is 32 —; the softmax of each row of scores; and two results, the attention weights times the values and the
  transposed attention weights times the vision half.

  The kernel does it in two pallas_calls. The first writes the queries, keys, values and a copy of the vision half,
  512 rows at a point. The second handles 256 query rows at a point: the first result's rows are complete at once;
  the second result's slab of a batch is zeroed at the batch's first point and added to at each of its eight points,
  so after the last it is the sum over all 2048 query rows, eight blocks of 256 — the same terms as the reference's
  single sum, grouped in blocks. Nothing is cancelled or distributed, so no finiteness of the inputs is used.

  Spec.lean states the common function; ProjValue.lean and AttnValue.lean read the kernel's two pallas_calls against
  it, RunMain.lean names the result arrays in the kernel's run, RefValue.lean reads the reference against it.
-/
import proofs.«179408_j30039001268913_2_alg».proof.Defs
import proofs.«179408_j30039001268913_2_alg».proof.Proof.Gen.Kernel
import proofs.«179408_j30039001268913_2_alg».proof.Proof.Gen.Kernel.Frame
import proofs.«179408_j30039001268913_2_alg».proof.Proof.Gen.KernelIdeal
import proofs.«179408_j30039001268913_2_alg».proof.Proof.Gen.KernelIdeal.Frame
import proofs.«179408_j30039001268913_2_alg».proof.Proof.Gen.ReferenceIdeal
import proofs.«179408_j30039001268913_2_alg».proof.Proof.Gen.ReferenceIdeal.Run
import proofs.«179408_j30039001268913_2_alg».proof.Proof.Gen.ReferenceIdeal.Read
import proofs.«179408_j30039001268913_2_alg».proof.Proof.Gen.Pre_finite_inputs
import proofs.«179408_j30039001268913_2_alg».proof.Proof.Spec
import proofs.«179408_j30039001268913_2_alg».proof.Proof.RunMain
import proofs.«179408_j30039001268913_2_alg».proof.Proof.ProjValue
import proofs.«179408_j30039001268913_2_alg».proof.Proof.AttnValue
import proofs.«179408_j30039001268913_2_alg».proof.Proof.RefValue
import Idealize.ShloMosaic.Adequacy
import Idealize.ShloMosaic.Init

noncomputable section

namespace Cert.Proof

open Idealize.ShloMosaic Idealize.ShloMosaic.TcCoe Idealize.SL.Sem

/-! ## The kernel's two result arrays are the specification's -/

section KernelValue

open Cert.KernelIdeal Cert.KernelIdeal.Gen

variable (m : (ℓ : Loc Cert.KernelIdeal.nD Cert.KernelIdeal.τ Cert.KernelIdeal.sig) → Buf (Elt Ideal) ℓ) (ρ : Dev Cert.KernelIdeal.nD → PrngReg)

/-- The first result array after the run: the attention weights times the values. -/
theorem res0 (c : Dev Cert.KernelIdeal.nD) :
    W3 m ρ c (Proc.devRef .tc Cert.KernelIdeal.main_v10_0) = Cert.Spec.outVis (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  rw [Cert.KernelIdeal.RunMain.res0_eq]
  exact Cert.KernelIdeal.AttnValue.final4 (V2 m ρ) c _ _ _
    ((Cert.KernelIdeal.RunMain.in0_eq m ρ c).trans (Cert.KernelIdeal.ProjValue.proj_q m ρ c))
    ((Cert.KernelIdeal.RunMain.in1_eq m ρ c).trans (Cert.KernelIdeal.ProjValue.proj_k m ρ c))
    ((Cert.KernelIdeal.RunMain.in2_eq m ρ c).trans (Cert.KernelIdeal.ProjValue.proj_v m ρ c))

/-- The second result array after the run: the transposed attention weights times the vision half. -/
theorem res1 (c : Dev Cert.KernelIdeal.nD) :
    W3 m ρ c (Proc.devRef .tc Cert.KernelIdeal.main_v10_1) = Cert.Spec.outTxt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  rw [Cert.KernelIdeal.RunMain.res1_eq]
  exact Cert.KernelIdeal.AttnValue.final5 (V2 m ρ) c _ _ _
    ((Cert.KernelIdeal.RunMain.in0_eq m ρ c).trans (Cert.KernelIdeal.ProjValue.proj_q m ρ c))
    ((Cert.KernelIdeal.RunMain.in1_eq m ρ c).trans (Cert.KernelIdeal.ProjValue.proj_k m ρ c))
    ((Cert.KernelIdeal.RunMain.in3_eq m ρ c).trans (Cert.KernelIdeal.ProjValue.proj_vis m ρ c))

end KernelValue

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: the idealization is the program's own text read on the extended reals. -/
theorem preserves : Cert.preserves_Kernel_KernelIdeal := trivial

/-- Both programs end with the specification's two arrays of arguments that agree. -/
theorem algebraic : Cert.algebraic_KernelIdeal_ReferenceIdeal := by
  intro m ρ m' ρ' _ hagree
  refine ⟨fun c => Cert.Spec.outVis (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.outTxt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (res0 m ρ c), (h c).2.1.trans (res1 m ρ c), (h c).2.2⟩)
      (Cert.KernelIdeal.RunMain.run_main (F := Ideal) m ρ)
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v29_eq, Cert.RefValue.ref_outVis, (hagree c).1, (hagree c).2.1,
        (hagree c).2.2.1, (hagree c).2.2.2.1, (hagree c).2.2.2.2.1, (hagree c).2.2.2.2.2.1, (hagree c).2.2.2.2.2.2]
    · rw [(h c).2.1, Cert.ReferenceIdeal.Read.val_main_v30_eq, Cert.RefValue.ref_outTxt, (hagree c).1, (hagree c).2.1,
        (hagree c).2.2.1, (hagree c).2.2.2.1, (hagree c).2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
